-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512x512 : Shape := ⟨3, ![256, 512, 512]⟩
abbrev S_ : Shape := ⟨0, ![]⟩

class Facts : Prop where
  bcast_S_S256x512x512 : S_.BroadcastsInDim S256x512x512 (![] : Fin 0 → Fin S256x512x512.rank)
  reducesTo_S256x512x512_S_d0_1_2 : S256x512x512.ReducesTo [0, 1, 2] S_
  h_S_ : 0 < S_.numel

variable [Facts]

def fn {F : FTy → Type} [FloatOps F] (main_arg0 : FVec F S256x512x512 .f32) : IVec S_ 1 :=
  let main_v0 : FVec F S256x512x512 .f32 := Host.absf main_arg0
  let main_cst : FVec F S_ .f32 := constant S_ .f32 0x7F800000#32
  let main_v1 : FVec F S256x512x512 .f32 := broadcastInDim S256x512x512 ![] bcast_S_S256x512x512 main_cst
  let main_v2 : IVec S256x512x512 1 := cmpf .olt main_v0 main_v1
  let main_c : IVec S_ 1 := constantI S_ 1 1#1
  let main_v3 : IVec S_ 1 := (fun x v => Host.reduce IntOp.andi x v reducesTo_S256x512x512_S_d0_1_2 h_S_) main_v2 main_c
  main_v3
-- ==== Kernel.lean ====
abbrev S256x512x512 : Shape := ⟨3, ![256, 512, 512]⟩
abbrev S8x512x512 : Shape := ⟨3, ![8, 512, 512]⟩
abbrev S8x512 : Shape := ⟨2, ![8, 512]⟩
abbrev S8x128x512 : Shape := ⟨3, ![8, 128, 512]⟩
abbrev S8x128 : Shape := ⟨2, ![8, 128]⟩
abbrev S8 : Shape := ⟨1, ![8]⟩
abbrev S8x1 : Shape := ⟨2, ![8, 1]⟩
abbrev S8x1x1 : Shape := ⟨3, ![8, 1, 1]⟩
abbrev S8x1x512 : Shape := ⟨3, ![8, 1, 512]⟩
abbrev S8x128x1 : Shape := ⟨3, ![8, 128, 1]⟩

abbrev nBuf : Space → Nat
  | .hbm => 2
  | .vmem => 6
  | .smem => 0
  | _ => 0

abbrev bufTy : (tb : Table) → Fin (tcTables nBuf tb) → BufTy
  | .hbm, ⟨0, _⟩ => ⟨S256x512x512, .f32⟩
  | .hbm, ⟨1, _⟩ => ⟨S256x512x512, .f32⟩
  | .local _ .vmem, ⟨0, _⟩ => ⟨S8x512x512, .f32⟩
  | .local _ .vmem, ⟨1, _⟩ => ⟨S8x512x512, .f32⟩
  | .local _ .vmem, ⟨2, _⟩ => ⟨S8x512x512, .f32⟩
  | .local _ .vmem, ⟨3, _⟩ => ⟨S8x512x512, .f32⟩
  | .local _ .vmem, ⟨4, _⟩ => ⟨S8x512, .f32⟩
  | .local _ .vmem, ⟨5, _⟩ => ⟨S8x512, .f32⟩
  | _, _ => ⟨S256x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S8x512_S8x512_0_0 : ∀ a, (![0, 0] : Fin 2 → Nat) a + S8x512.size a ≤ S8x512.size a
  h_S8x512 : 0 < S8x512.numel
  shapeCasts_S8x512_S8x512 : S8x512.ShapeCasts S8x512
  inb_S8x512x512_S8x128x512_0_0_0 : ∀ a, (![0, 0, 0] : Fin 3 → Nat) a + S8x128x512.size a ≤ S8x512x512.size a
  h_S8x128x512 : 0 < S8x128x512.numel
  reduces_S8x128x512_S8x128 : S8x128x512.Reduces [2] S8x128
  inb_S8x512_S8x128_0_0 : ∀ a, (![0, 0] : Fin 2 → Nat) a + S8x128.size a ≤ S8x512.size a
  h_S8x128 : 0 < S8x128.numel
  shapeCasts_S8x128_S8x128 : S8x128.ShapeCasts S8x128
  reduces_S8x128x512_S8x512 : S8x128x512.Reduces [1] S8x512
  inb_S8x512x512_S8x128x512_0_128_0 : ∀ a, (![0, 128, 0] : Fin 3 → Nat) a + S8x128x512.size a ≤ S8x512x512.size a
  inb_S8x512_S8x128_0_128 : ∀ a, (![0, 128] : Fin 2 → Nat) a + S8x128.size a ≤ S8x512.size a
  inb_S8x512x512_S8x128x512_0_256_0 : ∀ a, (![0, 256, 0] : Fin 3 → Nat) a + S8x128x512.size a ≤ S8x512x512.size a
  inb_S8x512_S8x128_0_256 : ∀ a, (![0, 256] : Fin 2 → Nat) a + S8x128.size a ≤ S8x512.size a
  inb_S8x512x512_S8x128x512_0_384_0 : ∀ a, (![0, 384, 0] : Fin 3 → Nat) a + S8x128x512.size a ≤ S8x512x512.size a
  inb_S8x512_S8x128_0_384 : ∀ a, (![0, 384] : Fin 2 → Nat) a + S8x128.size a ≤ S8x512.size a
  reduces_S8x512_S8 : S8x512.Reduces [1] S8
  shapeCasts_S8_S8x1 : S8.ShapeCasts S8x1
  shapeCasts_S8x1_S8x1x1 : S8x1.ShapeCasts S8x1x1
  shapeCasts_S8x512_S8x1x512 : S8x512.ShapeCasts S8x1x512
  shapeCasts_S8x128_S8x128x1 : S8x128.ShapeCasts S8x128x1
  broadcasts_S8x1x1_S8x128x1 : S8x1x1.Broadcasts S8x128x1
  broadcasts_S8x128x1_S8x128x512 : S8x128x1.Broadcasts S8x128x512
  broadcasts_S8x1x512_S8x128x512 : S8x1x512.Broadcasts S8x128x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x512.size a ≤ S256x512x512.size a
  hwx0_0 : ∀ i : grid0.Coords, EltTy.bits .f32 = 32 ∨ (Rect.block (s := S256x512x512) S8x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x512x512.size a ≤ S256x512x512.size a
  hwx0_1 : ∀ i : grid0.Coords, EltTy.bits .f32 = 32 ∨ (Rect.block (s := S256x512x512) S8x512x512.size (cc0_transform_1 i) (hinb0_1 i)).WholeWords (EltTy.packing .f32)

variable [Facts₀]

abbrev win0_0 : Pipeline.Window sig grid0 :=
  Pipeline.Window.ofSpec (Memref.whole main_arg0) S8x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x512x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S256x512x512 : Shape := ⟨3, ![256, 512, 512]⟩
abbrev S_ : Shape := ⟨0, ![]⟩
abbrev S256x512 : Shape := ⟨2, ![256, 512]⟩
abbrev S256x512x1 : Shape := ⟨3, ![256, 512, 1]⟩
abbrev S256x1x512 : Shape := ⟨3, ![256, 1, 512]⟩
abbrev S256 : Shape := ⟨1, ![256]⟩
abbrev S256x1x1 : Shape := ⟨3, ![256, 1, 1]⟩

abbrev nBuf : Space → Nat
  | .hbm => 28
  | .vmem => 0
  | .smem => 0
  | _ => 0

abbrev bufTy : (tb : Table) → Fin (tcTables nBuf tb) → BufTy
  | .hbm, ⟨0, _⟩ => ⟨S256x512x512, .f32⟩
  | .hbm, ⟨1, _⟩ => ⟨S_, .f32⟩
  | .hbm, ⟨2, _⟩ => ⟨S256x512, .f32⟩
  | .hbm, ⟨3, _⟩ => ⟨S256x512x1, .f32⟩
  | .hbm, ⟨4, _⟩ => ⟨S_, .f32⟩
  | .hbm, ⟨5, _⟩ => ⟨S256x512x1, .f32⟩
  | .hbm, ⟨6, _⟩ => ⟨S256x512x1, .f32⟩
  | .hbm, ⟨7, _⟩ => ⟨S_, .f32⟩
  | .hbm, ⟨8, _⟩ => ⟨S256x512, .f32⟩
  | .hbm, ⟨9, _⟩ => ⟨S256x1x512, .f32⟩
  | .hbm, ⟨10, _⟩ => ⟨S_, .f32⟩
  | .hbm, ⟨11, _⟩ => ⟨S256x1x512, .f32⟩
  | .hbm, ⟨12, _⟩ => ⟨S256x1x512, .f32⟩
  | .hbm, ⟨13, _⟩ => ⟨S_, .f32⟩
  | .hbm, ⟨14, _⟩ => ⟨S256, .f32⟩
  | .hbm, ⟨15, _⟩ => ⟨S256x1x1, .f32⟩
  | .hbm, ⟨16, _⟩ => ⟨S_, .f32⟩
  | .hbm, ⟨17, _⟩ => ⟨S256x1x1, .f32⟩
  | .hbm, ⟨18, _⟩ => ⟨S256x1x1, .f32⟩
  | .hbm, ⟨19, _⟩ => ⟨S256x512x512, .f32⟩
  | .hbm, ⟨20, _⟩ => ⟨S256x512x512, .f32⟩
  | .hbm, ⟨21, _⟩ => ⟨S256x512x512, .f32⟩
  | .hbm, ⟨22, _⟩ => ⟨S256x512x512, .f32⟩
  | .hbm, ⟨23, _⟩ => ⟨S256x512x512, .f32⟩
  | .hbm, ⟨24, _⟩ => ⟨S256x512x512, .f32⟩
  | .hbm, ⟨25, _⟩ => ⟨S_, .f32⟩
  | .hbm, ⟨26, _⟩ => ⟨S256x512x512, .f32⟩
  | .hbm, ⟨27, _⟩ => ⟨S256x512x512, .f32⟩
  | _, _ => ⟨S256x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_cst_1 : Ref sig .tc := ⟨.hbm, 7, rfl⟩
abbrev main_v4 : Ref sig .tc := ⟨.hbm, 8, rfl⟩
abbrev main_v5 : Ref sig .tc := ⟨.hbm, 9, rfl⟩
abbrev main_cst_2 : Ref sig .tc := ⟨.hbm, 10, rfl⟩
abbrev main_v6 : Ref sig .tc := ⟨.hbm, 11, rfl⟩
abbrev main_v7 : Ref sig .tc := ⟨.hbm, 12, rfl⟩
abbrev main_cst_3 : Ref sig .tc := ⟨.hbm, 13, rfl⟩
abbrev main_v8 : Ref sig .tc := ⟨.hbm, 14, rfl⟩
abbrev main_v9 : Ref sig .tc := ⟨.hbm, 15, rfl⟩
abbrev main_cst_4 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_5 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  reducesTo_S256x512x512_S256x512_d2 : S256x512x512.ReducesTo [2] S256x512
  h_S_ : 0 < S_.numel
  bcast_S256x512_S256x512x1_0_1 : S256x512.BroadcastsInDim S256x512x1 (![0, 1] : Fin 2 → Fin S256x512x1.rank)
  bcast_S_S256x512x1 : S_.BroadcastsInDim S256x512x1 (![] : Fin 0 → Fin S256x512x1.rank)
  reducesTo_S256x512x512_S256x512_d1 : S256x512x512.ReducesTo [1] S256x512
  bcast_S256x512_S256x1x512_0_2 : S256x512.BroadcastsInDim S256x1x512 (![0, 2] : Fin 2 → Fin S256x1x512.rank)
  bcast_S_S256x1x512 : S_.BroadcastsInDim S256x1x512 (![] : Fin 0 → Fin S256x1x512.rank)
  reducesTo_S256x512x512_S256_d1_2 : S256x512x512.ReducesTo [1, 2] S256
  bcast_S256_S256x1x1_0 : S256.BroadcastsInDim S256x1x1 (![0] : Fin 1 → Fin S256x1x1.rank)
  bcast_S_S256x1x1 : S_.BroadcastsInDim S256x1x1 (![] : Fin 0 → Fin S256x1x1.rank)
  bcast_S256x512x1_S256x512x512_0_1_2 : S256x512x1.BroadcastsInDim S256x512x512 (![0, 1, 2] : Fin 3 → Fin S256x512x512.rank)
  bcast_S256x1x512_S256x512x512_0_1_2 : S256x1x512.BroadcastsInDim S256x512x512 (![0, 1, 2] : Fin 3 → Fin S256x512x512.rank)
  bcast_S256x1x1_S256x512x512_0_1_2 : S256x1x1.BroadcastsInDim S256x512x512 (![0, 1, 2] : Fin 3 → Fin S256x512x512.rank)
  bcast_S_S256x512x512 : S_.BroadcastsInDim S256x512x512 (![] : Fin 0 → Fin S256x512x512.rank)

variable [Facts₀]

class Facts : Prop extends Facts₀ where

variable [Facts]
-- ==== Proof.Spec.lean ====
/-
  Double centering, stated once.

  For a stack of `n` square matrices `D b` of side 512 the doubly centred matrix is
  `T b = -1/2 · (D b − row means − column means + grand mean)`.  This file states it entry by entry in the
  arrangement `(-1/2)·d + 1/2·(rowSum/512 − total/262144) + 1/2·(colSum/512)`, with the four scale factors left as
  the float words that spell them, over the extended reals.  The stack height `n` is a parameter: one batch entry
  depends only on its own matrix, so a block of 8 matrices and the whole stack of 256 share the statement.
-/
import Idealize.ShloMosaic.PureOps.Ideal
import Idealize.ShloMosaic.Lib.ValueIdx

noncomputable section

namespace Cert.Centering

open Idealize.ShloMosaic Idealize.ShloMosaic.ValueIdx

variable {n : ℕ}

/-- The sum of row `r` of matrix `b`. -/
def rowSum (D : (⟨3, ![n, 512, 512]⟩ : Shape).Idx → EReal) (b : Fin n) (r : Fin 512) : EReal :=
  ∑ c : Fin 512, D (ix3 b r c)

/-- The sum of column `c` of matrix `b`. -/
def colSum (D : (⟨3, ![n, 512, 512]⟩ : Shape).Idx → EReal) (b : Fin n) (c : Fin 512) : EReal :=
  ∑ r : Fin 512, D (ix3 b r c)

/-- The sum of all entries of matrix `b`, row by row. -/
def total (D : (⟨3, ![n, 512, 512]⟩ : Shape).Idx → EReal) (b : Fin n) : EReal :=
  ∑ r : Fin 512, rowSum D b r

/-- The doubly centred stack, entry by entry. -/
def centred (D : (⟨3, ![n, 512, 512]⟩ : Shape).Idx → EReal) : (⟨3, ![n, 512, 512]⟩ : Shape).Idx → EReal := fun i =>
  (Ideal.ofBits .f32 0xBF000000#32 * D i
      + Ideal.ofBits .f32 0x3F000000#32
        * (rowSum D (i 0) (i 1) * Ideal.ofBits .f32 0x3B000000#32 - total D (i 0) * Ideal.ofBits .f32 0x36800000#32))
    + Ideal.ofBits .f32 0x3F000000#32 * (colSum D (i 0) (i 2) * Ideal.ofBits .f32 0x3B000000#32)

/-- The same at an index given by its coordinates. -/
theorem centred_ix3 (D : (⟨3, ![n, 512, 512]⟩ : Shape).Idx → EReal) (b : Fin n) (r c : Fin 512) :
    centred D (ix3 b r c)
      = (Ideal.ofBits .f32 0xBF000000#32 * D (ix3 b r c)
          + Ideal.ofBits .f32 0x3F000000#32
            * (rowSum D b r * Ideal.ofBits .f32 0x3B000000#32 - total D b * Ideal.ofBits .f32 0x36800000#32))
        + Ideal.ofBits .f32 0x3F000000#32 * (colSum D b c * Ideal.ofBits .f32 0x3B000000#32) := rfl

end Cert.Centering

end
-- ==== Proof.LibRank3Layout.lean ====
/-
  Rank-3 layout operations and lane reductions read at an index, over literal-size index constructors.

  A flat array of `a * b` rows viewed as `a` groups of `b` rows; the keep-dimension cast that appends a unit axis; the
  broadcast of that unit axis along the lanes; the broadcast of a leading unit axis over the groups; and, at the
  exact extended reals, the lane sum and the lane maximum of a rank-3 array and the row sum of a rank-2 array, each
  as a sum or a fold over `Fin` of the operand at the index with the reduced coordinate inserted.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibRank3

open Idealize.ShloMosaic Idealize.ShloMosaic.ValueIdx

variable {α : Type}

/-- `[n, d]` viewed `[a, b, d]` (so `n = a * b`): entry `(p, q, r)` is row `p * b + q`, column `r`. -/
theorem shapeCast_rows_apply {n a b d : ℕ} (x : (⟨2, ![n, d]⟩ : Shape).Idx → α)
    (h : (⟨2, ![n, d]⟩ : Shape).ShapeCasts ⟨3, ![a, b, d]⟩) (p : Fin a) (q : Fin b) (r : Fin d)
    (hpq : p.val * b + q.val < n) :
    shapeCast ⟨3, ![a, b, d]⟩ x h (ix3 p q r) = x (ix2 ⟨p.val * b + q.val, hpq⟩ r) := by
  refine shapeCast_apply x h _ _ ?_
  rw [Shape.rowMajor_val_two, Shape.rowMajor_val_three]
  rfl

/-- `[a, b]` viewed `[a, b, 1]`: entry `(p, q, 0)` is entry `(p, q)`. -/
theorem shapeCast_keepdim_apply {a b : ℕ} (x : (⟨2, ![a, b]⟩ : Shape).Idx → α)
    (h : (⟨2, ![a, b]⟩ : Shape).ShapeCasts ⟨3, ![a, b, 1]⟩) (p : Fin a) (q : Fin b) (z : Fin 1) :
    shapeCast ⟨3, ![a, b, 1]⟩ x h (ix3 p q z) = x (ix2 p q) := by
  refine shapeCast_apply x h _ _ ?_
  rw [Shape.rowMajor_val_two, Shape.rowMajor_val_three]
  show p.val * b + q.val = (p.val * b + q.val) * 1 + z.val
  have := z.isLt
  omega

/-- `[a, b, 1]` broadcast along the lanes to `[a, b, c]`: entry `(p, q, r)` is entry `(p, q, 0)`. -/
theorem broadcastTo_lane_apply {a b c : ℕ} (x : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ x h (ix3 p q r) = x (ix3 p q ⟨0, Nat.one_pos⟩) := by
  refine broadcastTo_apply x h _ _ fun d => ?_
  match d with
  | ⟨0, _⟩ =>
    show p.val = if a = 1 then 0 else p.val
    split_ifs with h1
    · have := p.isLt; omega
    · rfl
  | ⟨1, _⟩ =>
    show q.val = if b = 1 then 0 else q.val
    split_ifs with h1
    · have := q.isLt; omega
    · rfl
  | ⟨2, _⟩ =>
    show (0 : ℕ) = if (1 : ℕ) = 1 then 0 else r.val
    rw [if_pos rfl]

/-- `[1, b, c]` broadcast over the groups to `[a, b, c]`: entry `(p, q, r)` is entry `(0, q, r)`. -/
theorem broadcastTo_group_apply {a b c : ℕ} (x : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ x h (ix3 p q r) = x (ix3 ⟨0, Nat.one_pos⟩ q r) := by
  refine broadcastTo_apply x h _ _ fun d => ?_
  match d with
  | ⟨0, _⟩ =>
    show (0 : ℕ) = if (1 : ℕ) = 1 then 0 else p.val
    rw [if_pos rfl]
  | ⟨1, _⟩ =>
    show q.val = if b = 1 then 0 else q.val
    split_ifs with h1
    · have := q.isLt; omega
    · rfl
  | ⟨2, _⟩ =>
    show r.val = if c = 1 then 0 else r.val
    split_ifs with h1
    · have := r.isLt; omega
    · rfl

/-- The lane sum of a rank-3 array at the exact extended reals: at `(p, q)` the sum over `k` of entry `(p, q, k)`. -/
theorem sum_lane_apply {a b c : ℕ} (src : FVec Ideal ⟨3, ![a, b, c]⟩ .f32) (acc : BitVec 32)
    (h : (⟨3, ![a, b, c]⟩ : Shape).Reduces [2] ⟨2, ![a, b]⟩) (hφ : FKind.Formats .f32)
    (hacc : acc = FKind.add.neutral .f32 hφ) (p : Fin a) (q : Fin b) :
    multiReduction .add [2] ⟨2, ![a, b]⟩ src acc h hφ hacc (ix2 p q) = ∑ k : Fin c, src (ix3 p q k) := by
  refine (Ideal.multiReduction_add_single src acc h hφ hacc (ix2 p q)).trans ?_
  refine Finset.sum_congr rfl fun k _ => congrArg src (funext fun d => Fin.ext ?_)
  match d with
  | ⟨0, _⟩ => rfl
  | ⟨1, _⟩ => rfl
  | ⟨2, _⟩ => rfl

/-- The lane maximum of a rank-3 array at the exact extended reals: at `(p, q)` the fold of `max`, from the value of the
    starting pattern, over `k` of entry `(p, q, k)`. -/
theorem max_lane_apply {a b c : ℕ} (src : FVec Ideal ⟨3, ![a, b, c]⟩ .f32) (acc : BitVec 32)
    (h : (⟨3, ![a, b, c]⟩ : Shape).Reduces [2] ⟨2, ![a, b]⟩) (hφ : FKind.Formats .f32)
    (hacc : acc = FKind.maximumf.neutral .f32 hφ) (p : Fin a) (q : Fin b) :
    multiReduction .maximumf [2] ⟨2, ![a, b]⟩ src acc h hφ hacc (ix2 p q)
      = (Finset.univ : Finset (Fin c)).fold max (Ideal.ofBits .f32 acc) (fun k => src (ix3 p q k)) := by
  refine (Ideal.multiReduction_maximumf_single src acc h hφ hacc (ix2 p q)).trans ?_
  refine congrArg (Finset.fold max (Ideal.ofBits .f32 acc) · Finset.univ) (funext fun k => congrArg src (funext fun d => Fin.ext ?_))
  match d with
  | ⟨0, _⟩ => rfl
  | ⟨1, _⟩ => rfl
  | ⟨2, _⟩ => rfl

/-- The row sum of a rank-2 array at the exact extended reals: at `p` the sum over `k` of entry `(p, k)`. -/
theorem sum_row_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun d => Fin.ext ?_)
  match d with
  | ⟨0, _⟩ => rfl
  | ⟨1, _⟩ => rfl

end Cert.LibRank3

end
-- ==== Proof.LibRank3Mid.lean ====
/-
  The sum along the middle axis of a rank-3 array, read at an index: a general lemma.

  At the exact extended reals a sum reduction of an `[a, b, c]` array over its middle axis leaves an `[a, c]` array
  whose entry `(p, r)` is the sum over `k` of the entries `(p, k, r)`: the column sums of each of the `a` matrices.
-/
import Idealize.ShloMosaic.PureOps.Ideal
import Idealize.ShloMosaic.PureOps.Ideal.Laws
import Idealize.ShloMosaic.Lib.ValueIdx

noncomputable section

namespace Cert.LibRank3Mid

open Idealize.ShloMosaic Idealize.ShloMosaic.ValueIdx

/-- The sum along the middle axis of a rank-3 array at the exact extended reals: at `(p, r)` the sum over `k` of
    entry `(p, k, r)`. -/
theorem sum_mid_apply {a b c : ℕ} (src : FVec Ideal ⟨3, ![a, b, c]⟩ .f32) (acc : BitVec 32)
    (h : (⟨3, ![a, b, c]⟩ : Shape).Reduces [1] ⟨2, ![a, c]⟩) (hφ : FKind.Formats .f32)
    (hacc : acc = FKind.add.neutral .f32 hφ) (p : Fin a) (r : Fin c) :
    multiReduction .add [1] ⟨2, ![a, c]⟩ src acc h hφ hacc (ix2 p r) = ∑ k : Fin b, src (ix3 p k r) := by
  refine (Ideal.multiReduction_add_single src acc h hφ hacc (ix2 p r)).trans ?_
  refine Finset.sum_congr rfl fun k _ => congrArg src (funext fun d => Fin.ext ?_)
  match d with
  | ⟨0, _⟩ => rfl
  | ⟨1, _⟩ => rfl
  | ⟨2, _⟩ => rfl

end Cert.LibRank3Mid

end
-- ==== Proof.PayReduce.lean ====
/-
  The reduction payloads of the kernel body, read at an index at the exact extended reals.

  The body walks the 512 rows of each matrix in four chunks of 128 rows.  For every chunk it forms two reductions of the
  [8, 128, 512] block: the sum along the lanes (one number per row: the chunk's row sums) and the sum along the rows
  (one number per column: the chunk's column sums), the latter added to a running [8, 512] total that starts from the
  zero block.  Each of these values, at an index, is a finite sum over `Fin` of the block's entries; the casts to the
  same shape that surround them are identities.
-/
import proofs.«112538_j41016937676996_2_alg».proof.Proof.Gen.KernelIdeal.Skeleton
import proofs.«112538_j41016937676996_2_alg».proof.Proof.LibRank3Layout
import proofs.«112538_j41016937676996_2_alg».proof.Proof.LibRank3Mid
import Idealize.ShloMosaic.PureOps.Ideal.Laws
import Idealize.ShloMosaic.Lib.ValueIdx
import Idealize.ShloMosaic.Lib.Pipeline.Value

noncomputable section

namespace Cert.Centering.Pay

open Idealize.ShloMosaic Idealize.ShloMosaic.ValueIdx Cert.KernelIdeal Cert.KernelIdeal.Gen

/-- The starting value of the running column total is the zero block. -/
theorem pay2_apply (p : Fin 8) (c : Fin 512) : k0_pay2 (F := Ideal) (ix2 p c) = 0 := by
  unfold k0_pay2
  refine (congrFun (shapeCast_self _ _) _).trans ?_
  exact Ideal.ofBits_zero_f32

/-- First chunk's row sums: at `(p, q)` the sum of row `q` of matrix `p` of the chunk. -/
theorem pay3_apply (X : Vec Ideal S8x128x512 .f32) (p : Fin 8) (q : Fin 128) :
    k0_pay3 (F := Ideal) X (ix2 p q) = ∑ c : Fin 512, X (ix3 p q c) := by
  unfold k0_pay3
  refine (congrFun (shapeCast_self _ _) _).trans ?_
  exact Cert.LibRank3.sum_lane_apply X _ _ _ _ p q

/-- Second chunk's row sums. -/
theorem pay5_apply (X : Vec Ideal S8x128x512 .f32) (p : Fin 8) (q : Fin 128) :
    k0_pay5 (F := Ideal) X (ix2 p q) = ∑ c : Fin 512, X (ix3 p q c) := by
  unfold k0_pay5
  refine (congrFun (shapeCast_self _ _) _).trans ?_
  exact Cert.LibRank3.sum_lane_apply X _ _ _ _ p q

/-- Third chunk's row sums. -/
theorem pay7_apply (X : Vec Ideal S8x128x512 .f32) (p : Fin 8) (q : Fin 128) :
    k0_pay7 (F := Ideal) X (ix2 p q) = ∑ c : Fin 512, X (ix3 p q c) := by
  unfold k0_pay7
  refine (congrFun (shapeCast_self _ _) _).trans ?_
  exact Cert.LibRank3.sum_lane_apply X _ _ _ _ p q

/-- Fourth chunk's row sums. -/
theorem pay9_apply (X : Vec Ideal S8x128x512 .f32) (p : Fin 8) (q : Fin 128) :
    k0_pay9 (F := Ideal) X (ix2 p q) = ∑ c : Fin 512, X (ix3 p q c) := by
  unfold k0_pay9
  refine (congrFun (shapeCast_self _ _) _).trans ?_
  exact Cert.LibRank3.sum_lane_apply X _ _ _ _ p q

/-- The running column total after the first chunk: at `(p, c)` the total so far plus the sum of column `c` of
    matrix `p` of the chunk. -/
theorem pay4_apply (X : Vec Ideal S8x128x512 .f32) (A : Vec Ideal S8x512 .f32) (p : Fin 8) (c : Fin 512) :
    k0_pay4 (F := Ideal) X A (ix2 p c) = A (ix2 p c) + ∑ q : Fin 128, X (ix3 p q c) := by
  unfold k0_pay4
  refine (congrFun (shapeCast_self _ _) _).trans ?_
  exact congrArg (A (ix2 p c) + ·) (Cert.LibRank3Mid.sum_mid_apply X _ _ _ _ p c)

/-- The running column total after the second chunk. -/
theorem pay6_apply (X : Vec Ideal S8x128x512 .f32) (A : Vec Ideal S8x512 .f32) (p : Fin 8) (c : Fin 512) :
    k0_pay6 (F := Ideal) X A (ix2 p c) = A (ix2 p c) + ∑ q : Fin 128, X (ix3 p q c) := by
  unfold k0_pay6
  refine (congrFun (shapeCast_self _ _) _).trans ?_
  exact congrArg (A (ix2 p c) + ·) (Cert.LibRank3Mid.sum_mid_apply X _ _ _ _ p c)

/-- The running column total after the third chunk. -/
theorem pay8_apply (X : Vec Ideal S8x128x512 .f32) (A : Vec Ideal S8x512 .f32) (p : Fin 8) (c : Fin 512) :
    k0_pay8 (F := Ideal) X A (ix2 p c) = A (ix2 p c) + ∑ q : Fin 128, X (ix3 p q c) := by
  unfold k0_pay8
  refine (congrFun (shapeCast_self _ _) _).trans ?_
  exact congrArg (A (ix2 p c) + ·) (Cert.LibRank3Mid.sum_mid_apply X _ _ _ _ p c)

/-- The running column total after the fourth chunk: the column sums of the whole matrix. -/
theorem pay10_apply (X : Vec Ideal S8x128x512 .f32) (A : Vec Ideal S8x512 .f32) (p : Fin 8) (c : Fin 512) :
    k0_pay10 (F := Ideal) X A (ix2 p c) = A (ix2 p c) + ∑ q : Fin 128, X (ix3 p q c) := by
  unfold k0_pay10
  refine (congrFun (shapeCast_self _ _) _).trans ?_
  exact congrArg (A (ix2 p c) + ·) (Cert.LibRank3Mid.sum_mid_apply X _ _ _ _ p c)

end Cert.Centering.Pay

end
-- ==== Proof.LibRowAxis.lean ====
/-
  A unit axis in the middle of a rank-3 shape, read at an index: general layout lemmas.

  A matrix `[a, d]` viewed as `[a, 1, d]` keeps its row-major order, so entry `(p, 0, r)` of the view is entry `(p, r)`
  of the matrix; and an `[a, 1, d]` array broadcast along its middle axis to `[a, b, d]` repeats row `p` for every
  middle coordinate, so entry `(p, q, r)` of the broadcast is entry `(p, 0, r)` of the operand.
-/
import Idealize.ShloMosaic.Lib.Pipeline.Value
import Idealize.ShloMosaic.Lib.ValueIdx

namespace Cert.LibRowAxis

open Idealize.ShloMosaic Idealize.ShloMosaic.ValueIdx

variable {α : Type}

/-- `[a, d]` viewed `[a, 1, d]`: entry `(p, z, r)` (with `z` the only coordinate of the unit axis) is entry `(p, r)`. -/
theorem shapeCast_ad_a1d_apply {a d : ℕ} (x : (⟨2, ![a, d]⟩ : Shape).Idx → α)
    (h : (⟨2, ![a, d]⟩ : Shape).ShapeCasts ⟨3, ![a, 1, d]⟩) (p : Fin a) (z : Fin 1) (r : Fin d) :
    shapeCast ⟨3, ![a, 1, d]⟩ x h (ix3 p z r) = x (ix2 p r) := by
  refine shapeCast_apply x h _ _ ?_
  rw [Shape.rowMajor_val_two, Shape.rowMajor_val_three]
  show p.val * d + r.val = (p.val * 1 + z.val) * d + r.val
  have hz : z.val = 0 := by have := z.isLt; omega
  rw [hz, Nat.mul_one, Nat.add_zero]

/-- `[a, 1, d]` broadcast along the middle axis to `[a, b, d]`: entry `(p, q, r)` is entry `(p, 0, r)`. -/
theorem broadcastTo_a1d_abd_apply {a b d : ℕ} (x : (⟨3, ![a, 1, d]⟩ : Shape).Idx → α)
    (h : (⟨3, ![a, 1, d]⟩ : Shape).Broadcasts ⟨3, ![a, b, d]⟩) (p : Fin a) (q : Fin b) (r : Fin d) :
    broadcastTo ⟨3, ![a, b, d]⟩ x h (ix3 p q r) = x (ix3 p ⟨0, Nat.one_pos⟩ r) := by
  refine broadcastTo_apply x h _ _ fun ax => ?_
  match ax with
  | ⟨0, _⟩ =>
    show p.val = if a = 1 then 0 else p.val
    split_ifs with h1
    · have := p.isLt; omega
    · rfl
  | ⟨1, _⟩ =>
    show (0 : ℕ) = if (1 : ℕ) = 1 then 0 else q.val
    rw [if_pos rfl]
  | ⟨2, _⟩ =>
    show r.val = if d = 1 then 0 else r.val
    split_ifs with h1
    · have := r.isLt; omega
    · rfl

end Cert.LibRowAxis
-- ==== Proof.LibVectorColumn.lean ====
/-
  A vector made into a column, two ways: a general layout lemma.

  An `[a]` array becomes an `[a, 1]` column either by a shape cast (row-major order kept) or by a broadcast that sends
  its one axis to axis 0. Either way the entry at `(p, 0)` is the vector's entry at `p`, so the two columns are the
  same array.
-/
import Idealize.ShloMosaic.Lib.Pipeline.Value
import Idealize.ShloMosaic.Lib.ValueIdx

namespace Cert.LibVectorColumn

open Idealize.ShloMosaic Idealize.ShloMosaic.ValueIdx

/-- An `[a]` array shape-cast to `[a, 1]` reads, at `(p, u)`, the operand at `p`. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- An `[a]` array broadcast to `[a, 1]` along axis 0 reads, at `(p, u)`, the operand at `p`. -/
theorem broadcastInDim_a_a1_apply {α : Type} {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- The shape-cast column and the broadcast column of one vector are the same array. -/
theorem shapeCast_eq_broadcastInDim {α : Type} {a : ℕ} (x : (⟨1, ![a]⟩ : Shape).Idx → α)
    (h : (⟨1, ![a]⟩ : Shape).ShapeCasts ⟨2, ![a, 1]⟩) (h' : (⟨1, ![a]⟩ : Shape).BroadcastsInDim ⟨2, ![a, 1]⟩ ![0]) :
    shapeCast ⟨2, ![a, 1]⟩ x h = broadcastInDim ⟨2, ![a, 1]⟩ ![0] h' x := by
  funext i
  obtain ⟨p, u, rfl⟩ : ∃ (p : Fin a) (u : Fin 1), i = ix2 p u := ⟨i 0, i 1, eq_ix2 i⟩
  rw [shapeCast_a_a1_apply, broadcastInDim_a_a1_apply]

end Cert.LibVectorColumn
-- ==== Proof.PayCombine.lean ====
/-
  The kernel body's elementwise and broadcast values, read at an index, at the exact extended reals.

  Each value here is built from pointwise products, sums and differences of arrays, from splats of a fixed float
  word, and from layout steps that only move entries: appending a unit axis, inserting a unit axis in the middle,
  repeating a unit axis along the lanes or along the rows. Reading such a value at an index therefore gives an
  arithmetic expression in the operands' entries at the correspondingly placed indices, with every float word kept
  as it is written (none is evaluated here).

  For a chunk `d` of shape `[8, 128, 512]` with row sums `rs` of shape `[8, 128]`, a per-matrix column `g` of
  shape `[8, 1, 1]` and a per-matrix row `m` of shape `[8, 1, 512]`, the centred chunk at `(p, q, c)` is

      w₋ * d (p, q, c) + w₊ * (rs (p, q) * w₅₁₂ - g (p, 0, 0)) + w₊ * m (p, 0, c)

  where `w₋`, `w₊`, `w₅₁₂` are the values of the words `0xBF000000`, `0x3F000000`, `0x3B000000`.
-/
import proofs.«112538_j41016937676996_2_alg».proof.Proof.Gen.KernelIdeal.Skeleton
import proofs.«112538_j41016937676996_2_alg».proof.Proof.LibRank3Layout
import proofs.«112538_j41016937676996_2_alg».proof.Proof.LibRowAxis
import proofs.«112538_j41016937676996_2_alg».proof.Proof.LibVectorColumn
import Idealize.ShloMosaic.PureOps.Ideal.Laws
import Idealize.ShloMosaic.Lib.ValueIdx
import Idealize.ShloMosaic.Lib.Pipeline.Value

noncomputable section

namespace Cert.Centering.Pay

open Idealize.ShloMosaic Idealize.ShloMosaic.ValueIdx Cert.KernelIdeal Cert.KernelIdeal.Gen

/-- The scaled grand-sum column: the row sum over the 512 entries of row `p`, times the word of `2⁻¹⁸`. The two
    unit axes appended afterwards do not move the entry. -/
theorem pay11_apply (R : Vec Ideal S8x512 .f32) (p : Fin 8) (z z' : Fin 1) :
    k0_pay11 (F := Ideal) R (ix3 p z z') = (∑ r : Fin 512, R (ix2 p r)) * Ideal.ofBits .f32 0x36800000#32 := by
  unfold k0_pay11
  refine (Cert.LibRank3.shapeCast_keepdim_apply _ _ p z z').trans ?_
  refine congrArg (· * Ideal.ofBits .f32 0x36800000#32) ?_
  refine (Cert.LibVectorColumn.shapeCast_a_a1_apply _ _ p z).trans ?_
  exact Cert.LibRank3.sum_row_apply R _ _ _ _ p

/-- The splat of the word of `1/512`. -/
theorem pay12_apply (p : Fin 8) (c : Fin 512) :
    k0_pay12 (F := Ideal) (ix2 p c) = Ideal.ofBits .f32 0x3B000000#32 := rfl

/-- The column means as a row with a unit middle axis: the entrywise product, the inserted axis not moving the entry. -/
theorem pay13_apply (C : Vec Ideal S8x512 .f32) (I : FVec Ideal S8x512 .f32) (p : Fin 8) (z : Fin 1) (c : Fin 512) :
    k0_pay13 (F := Ideal) C I (ix3 p z c) = C (ix2 p c) * I (ix2 p c) := by
  unfold k0_pay13
  exact Cert.LibRowAxis.shapeCast_ad_a1d_apply (mulf C I) _ p z c

/-- The row term: half of (scaled row sum minus the per-matrix column), repeated along the lanes. -/
private theorem rowTerm_apply (g : FVec Ideal S8x1x1 .f32) (rs : Vec Ideal S8x128 .f32)
    (p : Fin 8) (q : Fin 128) (c : Fin 512) :
    broadcastTo S8x128x512
        (mulf (broadcast S8x128x1 (Scalar.ofBits (F := Ideal) .f32 0x3F000000#32))
          (subf
            (shapeCast S8x128x1 (mulf rs (broadcast S8x128 (Scalar.ofBits (F := Ideal) .f32 0x3B000000#32)))
              shapeCasts_S8x128_S8x128x1)
            (broadcastTo S8x128x1 g broadcasts_S8x1x1_S8x128x1)))
        broadcasts_S8x128x1_S8x128x512 (ix3 p q c)
      = Ideal.ofBits .f32 0x3F000000#32 * (rs (ix2 p q) * Ideal.ofBits .f32 0x3B000000#32 - g (ix3 p 0 0)) := by
  refine (Cert.LibRank3.broadcastTo_lane_apply _ _ p q c).trans ?_
  refine congrArg (Ideal.ofBits .f32 0x3F000000#32 * ·) ?_
  refine congrArg₂ (· - ·) ?_ ?_
  · exact Cert.LibRank3.shapeCast_keepdim_apply _ _ p q _
  · exact Cert.LibRowAxis.broadcastTo_a1d_abd_apply g _ p q _

/-- The column term: half of the per-matrix row, repeated along the rows. -/
private theorem colTerm_apply (m : FVec Ideal S8x1x512 .f32) (p : Fin 8) (q : Fin 128) (c : Fin 512) :
    broadcastTo S8x128x512
        (mulf (broadcast S8x1x512 (Scalar.ofBits (F := Ideal) .f32 0x3F000000#32)) m)
        broadcasts_S8x1x512_S8x128x512 (ix3 p q c)
      = Ideal.ofBits .f32 0x3F000000#32 * m (ix3 p 0 c) :=
  Cert.LibRowAxis.broadcastTo_a1d_abd_apply _ _ p q c

theorem pay14_apply (v53 : FVec Ideal S8x1x1 .f32) (v54 : Vec Ideal S8x512 .f32) (v55 : FVec Ideal S8x512 .f32)
    (v58 : Vec Ideal S8x128x512 .f32) (v59 : Vec Ideal S8x128 .f32) (p : Fin 8) (q : Fin 128) (c : Fin 512) :
    k0_pay14 (F := Ideal) v53 v54 v55 v58 v59 (ix3 p q c)
      = (Ideal.ofBits .f32 0xBF000000#32 * v58 (ix3 p q c)
          + Ideal.ofBits .f32 0x3F000000#32 * (v59 (ix2 p q) * Ideal.ofBits .f32 0x3B000000#32 - v53 (ix3 p 0 0)))
        + Ideal.ofBits .f32 0x3F000000#32 * (v54 (ix2 p c) * v55 (ix2 p c)) := by
  unfold k0_pay14
  refine congrArg₂ (· + ·) (congrArg (Ideal.ofBits .f32 0xBF000000#32 * v58 (ix3 p q c) + ·) ?_) ?_
  · exact rowTerm_apply v53 v59 p q c
  · refine (colTerm_apply (k0_pay13 v54 v55) p q c).trans ?_
    exact congrArg (Ideal.ofBits .f32 0x3F000000#32 * ·) (pay13_apply v54 v55 p 0 c)

theorem pay15_apply (v53 : FVec Ideal S8x1x1 .f32) (v54 : Vec Ideal S8x512 .f32) (v55 : FVec Ideal S8x512 .f32)
    (v76 : Vec Ideal S8x128x512 .f32) (v77 : Vec Ideal S8x128 .f32) (p : Fin 8) (q : Fin 128) (c : Fin 512) :
    k0_pay15 (F := Ideal) v53 v54 v55 v76 v77 (ix3 p q c)
      = (Ideal.ofBits .f32 0xBF000000#32 * v76 (ix3 p q c)
          + Ideal.ofBits .f32 0x3F000000#32 * (v77 (ix2 p q) * Ideal.ofBits .f32 0x3B000000#32 - v53 (ix3 p 0 0)))
        + Ideal.ofBits .f32 0x3F000000#32 * (v54 (ix2 p c) * v55 (ix2 p c)) := by
  unfold k0_pay15
  refine congrArg₂ (· + ·) (congrArg (Ideal.ofBits .f32 0xBF000000#32 * v76 (ix3 p q c) + ·) ?_) ?_
  · exact rowTerm_apply v53 v77 p q c
  · refine (colTerm_apply (k0_pay13 v54 v55) p q c).trans ?_
    exact congrArg (Ideal.ofBits .f32 0x3F000000#32 * ·) (pay13_apply v54 v55 p 0 c)

theorem pay16_apply (v53 : FVec Ideal S8x1x1 .f32) (v57 : FVec Ideal S8x1x512 .f32) (v94 : Vec Ideal S8x128x512 .f32)
    (v95 : Vec Ideal S8x128 .f32) (p : Fin 8) (q : Fin 128) (c : Fin 512) :
    k0_pay16 (F := Ideal) v53 v57 v94 v95 (ix3 p q c)
      = (Ideal.ofBits .f32 0xBF000000#32 * v94 (ix3 p q c)
          + Ideal.ofBits .f32 0x3F000000#32 * (v95 (ix2 p q) * Ideal.ofBits .f32 0x3B000000#32 - v53 (ix3 p 0 0)))
        + Ideal.ofBits .f32 0x3F000000#32 * v57 (ix3 p 0 c) := by
  unfold k0_pay16
  refine congrArg₂ (· + ·) (congrArg (Ideal.ofBits .f32 0xBF000000#32 * v94 (ix3 p q c) + ·) ?_) ?_
  · exact rowTerm_apply v53 v95 p q c
  · exact colTerm_apply v57 p q c

theorem pay1_apply (v53 : FVec Ideal S8x1x1 .f32) (v57 : FVec Ideal S8x1x512 .f32) (v112 : Vec Ideal S8x128x512 .f32)
    (v113 : Vec Ideal S8x128 .f32) (p : Fin 8) (q : Fin 128) (c : Fin 512) :
    k0_pay1 (F := Ideal) (k0_pay17 v53 v112 v113) (k0_pay18 v57) (ix3 p q c)
      = (Ideal.ofBits .f32 0xBF000000#32 * v112 (ix3 p q c)
          + Ideal.ofBits .f32 0x3F000000#32 * (v113 (ix2 p q) * Ideal.ofBits .f32 0x3B000000#32 - v53 (ix3 p 0 0)))
        + Ideal.ofBits .f32 0x3F000000#32 * v57 (ix3 p 0 c) := by
  unfold k0_pay1 k0_pay17 k0_pay18
  refine congrArg₂ (· + ·) (congrArg (Ideal.ofBits .f32 0xBF000000#32 * v112 (ix3 p q c) + ·) ?_) ?_
  · exact rowTerm_apply v53 v113 p q c
  · exact colTerm_apply v57 p q c

end Cert.Centering.Pay

end
-- ==== Proof.LibBlockedSum.lean ====
/-
  A sum accumulated block by block: a general lemma.

  A long sum `∑ n < J * b, g n` (the contraction of a matrix product, say) is often computed in `J` consecutive
  blocks of `b` terms: an accumulator is cleared, and block `j` adds its partial sum `∑ k < b, g (j * b + k)` to
  it.  In any commutative additive monoid — the extended reals with their addition among them, where no
  finiteness is needed — the accumulator ends at the whole sum.  Three statements:

    * `sum_blocks`: the whole sum is the sum over the blocks of the blocks' partial sums;
    * `accum_eq_sum`: an accumulator that starts at `0 + blk 0` and adds `blk (n + 1)` at step `n + 1` holds
      `∑ j ≤ n, blk j` after step `n`;
    * `accum_blocks`: the two together, the accumulator after the last of `J` blocks is the whole sum.
-/
import Mathlib.Algebra.BigOperators.Fin
import Mathlib.Algebra.BigOperators.Intervals
import Mathlib.Logic.Equiv.Fin.Basic

namespace Cert.LibBlockedSum

variable {A : Type} [AddCommMonoid A]

/-- Position `k` of block `j` is a position of the whole range. -/
theorem pos_lt {J b : ℕ} (j : Fin J) (k : Fin b) : j.val * b + k.val < J * b :=
  calc j.val * b + k.val < j.val * b + b := Nat.add_lt_add_left k.isLt _
    _ = (j.val + 1) * b := (Nat.succ_mul _ _).symm
    _ ≤ J * b := Nat.mul_le_mul_right _ j.isLt

/-- A sum over `J * b` positions is the sum over the `J` blocks of each block's `b` terms. -/
theorem sum_blocks (J b : ℕ) (g : Fin (J * b) → A) :
    ∑ n : Fin (J * b), g n = ∑ j : Fin J, ∑ k : Fin b, g ⟨j.val * b + k.val, pos_lt j k⟩ := by
  rw [← Equiv.sum_comp finProdFinEquiv g, Fintype.sum_prod_type]
  refine Finset.sum_congr rfl fun j _ => Finset.sum_congr rfl fun k _ => congrArg g (Fin.ext ?_)
  show k.val + b * j.val = j.val * b + k.val
  rw [Nat.mul_comm, Nat.add_comm]

/-- A running total: started at `0 + blk 0`, with `blk (n + 1)` added at step `n + 1`, it holds the sum of the
    first `n + 1` blocks after step `n`. -/
theorem accum_eq_sum (blk acc : ℕ → A) (h0 : acc 0 = 0 + blk 0) (hs : ∀ n, acc (n + 1) = acc n + blk (n + 1)) (n : ℕ) :
    acc n = ∑ j ∈ Finset.range (n + 1), blk j := by
  induction n with
  | zero => rw [h0, zero_add, Finset.sum_range_one]
  | succ n ih => rw [hs n, ih, Finset.sum_range_succ _ (n + 1)]

/-- The same when only the first `J` steps are constrained (a grid of `J` points along the accumulation axis). -/
theorem accum_eq_sum_of_lt {J : ℕ} (blk acc : ℕ → A) (h0 : acc 0 = 0 + blk 0)
    (hs : ∀ n, n + 1 < J → acc (n + 1) = acc n + blk (n + 1)) (n : ℕ) (hn : n < J) :
    acc n = ∑ j ∈ Finset.range (n + 1), blk j := by
  induction n with
  | zero => rw [h0, zero_add, Finset.sum_range_one]
  | succ n ih => rw [hs n hn, ih (Nat.lt_of_succ_lt hn), Finset.sum_range_succ _ (n + 1)]

/-- An accumulator fed the `J` blocks' partial sums of `g`, one block per step, ends at the whole sum of `g`. -/
theorem accum_blocks (J b : ℕ) (g : Fin ((J + 1) * b) → A) (acc : ℕ → A)
    (h0 : acc 0 = 0 + ∑ k : Fin b, g ⟨(0 : Fin (J + 1)).val * b + k.val, pos_lt 0 k⟩)
    (hs : ∀ n (hn : n + 1 < J + 1), acc (n + 1) = acc n + ∑ k : Fin b, g ⟨(⟨n + 1, hn⟩ : Fin (J + 1)).val * b + k.val, pos_lt ⟨n + 1, hn⟩ k⟩) :
    acc J = ∑ n : Fin ((J + 1) * b), g n := by
  let blk : ℕ → A := fun j => if hj : j < J + 1 then ∑ k : Fin b, g ⟨(⟨j, hj⟩ : Fin (J + 1)).val * b + k.val, pos_lt ⟨j, hj⟩ k⟩ else 0
  have hb : ∀ (j : ℕ) (hj : j < J + 1), blk j = ∑ k : Fin b, g ⟨(⟨j, hj⟩ : Fin (J + 1)).val * b + k.val, pos_lt ⟨j, hj⟩ k⟩ :=
    fun j hj => dif_pos hj
  have h := accum_eq_sum_of_lt (J := J + 1) blk acc (by rw [h0, hb 0 (Nat.succ_pos J)]; rfl)
    (fun n hn => by rw [hs n hn, hb (n + 1) hn]) J (Nat.lt_succ_self J)
  rw [h, sum_blocks (J + 1) b g, ← Fin.sum_univ_eq_sum_range blk (J + 1)]
  exact Finset.sum_congr rfl fun j _ => hb j.val j.isLt

end Cert.LibBlockedSum
-- ==== Proof.BodyValue.lean ====
/-
  What the kernel body leaves in the output's staging buffer: the centring of the block it was handed.

  The body works on a block of 8 matrices in chunks of 128 rows.  A first pass stores each chunk's row sums in one
  scratch array and adds each chunk's column sums into a second, zeroed one; the grand total is the sum of the row
  sums.  A second pass stores, chunk by chunk, (-1/2)·d + 1/2·(rowSum/512 − total/262144) + 1/2·(colSum/512).
  Read back: the first scratch holds the block's row sums (four stores tiling its 512 columns), the second the
  block's column sums (four runs of 128 rows make the 512), and the four output stores tile the block, each the
  centred block restricted to its rows.
-/
import proofs.«112538_j41016937676996_2_alg».proof.Proof.Gen.KernelIdeal.Frame
import proofs.«112538_j41016937676996_2_alg».proof.Proof.Spec
import proofs.«112538_j41016937676996_2_alg».proof.Proof.PayReduce
import proofs.«112538_j41016937676996_2_alg».proof.Proof.PayCombine
import proofs.«112538_j41016937676996_2_alg».proof.Proof.LibBlockedSum
import Idealize.ShloMosaic.Lib.Pipeline.Value
import Idealize.ShloMosaic.Lib.ValueIdx
import Idealize.ShloMosaic.PureOps.Ideal.Laws
import Idealize.ShloMosaic.Lib.Tactic

noncomputable section

open Idealize.ShloMosaic Idealize.ShloMosaic.TcCoe Idealize.SL.Sem
namespace Cert.Centering.Body
open Idealize.ShloMosaic.ValueIdx Cert.KernelIdeal Cert.KernelIdeal.Gen Cert.Centering Cert.Centering.Pay

/-- A chunk of 128 rows read out of the block: entry (p, q, c) of the chunk at row offset o is entry (p, o + q, c). -/
theorem ld_chunk (X : Vec Ideal S8x512x512 .f32) (o : ℕ)
    (inb : ∀ a, (![0, o, 0] : Fin 3 → ℕ) a + S8x128x512.size a ≤ S8x512x512.size a)
    (p : Fin 8) (q : Fin 128) (c : Fin 512) (h : o + q.val < 512) :
    View.ld X (Rect.unit (s := S8x512x512) ![0, o, 0] S8x128x512.size inb) (ix3 p q c) = X (ix3 p ⟨o + q.val, h⟩ c) := by
  refine congrArg X (funext fun a => Fin.ext ?_)
  match a with
  | ⟨0, _⟩ => show 0 + 1 * p.val = p.val; omega
  | ⟨1, _⟩ => show o + 1 * q.val = o + q.val; omega
  | ⟨2, _⟩ => show 0 + 1 * c.val = c.val; omega

/-- The row sums of a block as an [8,512] array. -/
def rowsOf (x0 : Vec Ideal S8x512x512 .f32) : Vec Ideal S8x512 .f32 := fun j => rowSum x0 (j 0) (j 1)

theorem rowsOf_ix2 (x0 : Vec Ideal S8x512x512 .f32) (p : Fin 8) (r : Fin 512) : rowsOf x0 (ix2 p r) = rowSum x0 p r := rfl

/-- The index a 128-column piece of the [8,512] scratch gives its local index (p, q): (p, o + q). -/
theorem emb_cols (o : ℕ) (inb : ∀ a, (![0, o] : Fin 2 → ℕ) a + S8x128.size a ≤ S8x512.size a)
    (p : Fin 8) (q : Fin 128) (h : o + q.val < 512) :
    (Rect.unit (s := S8x512) ![0, o] S8x128.size inb).emb (ix2 p q) = ix2 p ⟨o + q.val, h⟩ := by
  refine funext fun a => Fin.ext ?_
  match a with
  | ⟨0, _⟩ => show 0 + 1 * p.val = p.val; omega
  | ⟨1, _⟩ => show o + 1 * q.val = o + q.val; omega

/-- The four row-sum stores into the [8,512] scratch, each the row sums of one 128-row chunk at its 128 columns, leave
    the block's row sums: any load after them reads `rowsOf` at the loaded indices. -/
theorem rows_read {sig : RefSig} {κ : Kind} {sp : Space} (v : View sig κ sp S8x512 .f32) (x0 : Vec Ideal S8x512x512 .f32)
    (B : LoadRect S8x512) :
    v.readCov (Val := Elt Ideal)
        [⟨Rect.unit ![0, 384] S8x128.size inb_S8x512_S8x128_0_384,
            k0_pay9 (F := Ideal) (View.ld x0 (Rect.unit ![0, 384, 0] S8x128x512.size inb_S8x512x512_S8x128x512_0_384_0))⟩,
          ⟨Rect.unit ![0, 256] S8x128.size inb_S8x512_S8x128_0_256,
            k0_pay7 (F := Ideal) (View.ld x0 (Rect.unit ![0, 256, 0] S8x128x512.size inb_S8x512x512_S8x128x512_0_256_0))⟩,
          ⟨Rect.unit ![0, 128] S8x128.size inb_S8x512_S8x128_0_128,
            k0_pay5 (F := Ideal) (View.ld x0 (Rect.unit ![0, 128, 0] S8x128x512.size inb_S8x512x512_S8x128x512_0_128_0))⟩,
          ⟨Rect.unit ![0, 0] S8x128.size inb_S8x512_S8x128_0_0,
            k0_pay3 (F := Ideal) (View.ld x0 (Rect.unit ![0, 0, 0] S8x128x512.size inb_S8x512x512_S8x128x512_0_0_0))⟩] B
      = fun j => rowsOf x0 (B.idx j) := by
  rw [View.readCov_eq_canon']
  funext j
  refine View.canon_apply_of_pieces (rowsOf x0) _ ?_ (B.idx j) (View.cover_of_tiledL (s := S8x512) _ (![8, 128] : Fin 2 → ℕ) (by sl_kernel_rfl) _)
  intro pc hpc
  simp only [List.mem_cons, List.not_mem_nil, or_false] at hpc
  rcases hpc with rfl | rfl | rfl | rfl
  · intro x
    obtain ⟨p, q, rfl⟩ : ∃ (p : Fin 8) (q : Fin 128), x = ix2 p q := ⟨x 0, x 1, eq_ix2 x⟩
    have hq : 384 + q.val < 512 := by have := q.isLt; omega
    refine (pay9_apply _ p q).trans ?_
    rw [emb_cols 384 _ p q hq, rowsOf_ix2]
    exact Finset.sum_congr rfl fun c _ => ld_chunk x0 384 _ p q c hq
  · intro x
    obtain ⟨p, q, rfl⟩ : ∃ (p : Fin 8) (q : Fin 128), x = ix2 p q := ⟨x 0, x 1, eq_ix2 x⟩
    have hq : 256 + q.val < 512 := by have := q.isLt; omega
    refine (pay7_apply _ p q).trans ?_
    rw [emb_cols 256 _ p q hq, rowsOf_ix2]
    exact Finset.sum_congr rfl fun c _ => ld_chunk x0 256 _ p q c hq
  · intro x
    obtain ⟨p, q, rfl⟩ : ∃ (p : Fin 8) (q : Fin 128), x = ix2 p q := ⟨x 0, x 1, eq_ix2 x⟩
    have hq : 128 + q.val < 512 := by have := q.isLt; omega
    refine (pay5_apply _ p q).trans ?_
    rw [emb_cols 128 _ p q hq, rowsOf_ix2]
    exact Finset.sum_congr rfl fun c _ => ld_chunk x0 128 _ p q c hq
  · intro x
    obtain ⟨p, q, rfl⟩ : ∃ (p : Fin 8) (q : Fin 128), x = ix2 p q := ⟨x 0, x 1, eq_ix2 x⟩
    have hq : 0 + q.val < 512 := by have := q.isLt; omega
    refine (pay3_apply _ p q).trans ?_
    rw [emb_cols 0 _ p q hq, rowsOf_ix2]
    exact Finset.sum_congr rfl fun c _ => ld_chunk x0 0 _ p q c hq

/-- The column-sum scratch after its five stores: zeroed, then each 128-row chunk's column sums added in turn. -/
def colsOf (x0 : Vec Ideal S8x512x512 .f32) : Vec Ideal S8x512 .f32 :=
  k0_pay10 (F := Ideal) (View.ld x0 (Rect.unit ![0, 384, 0] S8x128x512.size inb_S8x512x512_S8x128x512_0_384_0))
    (k0_pay8 (F := Ideal) (View.ld x0 (Rect.unit ![0, 256, 0] S8x128x512.size inb_S8x512x512_S8x128x512_0_256_0))
      (k0_pay6 (F := Ideal) (View.ld x0 (Rect.unit ![0, 128, 0] S8x128x512.size inb_S8x512x512_S8x128x512_0_128_0))
        (k0_pay4 (F := Ideal) (View.ld x0 (Rect.unit ![0, 0, 0] S8x128x512.size inb_S8x512x512_S8x128x512_0_0_0))
          (k0_pay2 (F := Ideal)))))

/-- Four runs of 128 rows make up the 512 rows: the accumulated chunk sums are the whole column sum. -/
theorem colsOf_apply (x0 : Vec Ideal S8x512x512 .f32) (p : Fin 8) (c : Fin 512) : colsOf x0 (ix2 p c) = colSum x0 p c := by
  unfold colsOf
  rw [pay10_apply, pay8_apply, pay6_apply, pay4_apply, pay2_apply, zero_add]
  have e : ∀ (o : ℕ) (inb : ∀ a, (![0, o, 0] : Fin 3 → ℕ) a + S8x128x512.size a ≤ S8x512x512.size a) (ho : o + 128 ≤ 512),
      ∑ q : Fin 128, View.ld x0 (Rect.unit (s := S8x512x512) ![0, o, 0] S8x128x512.size inb) (ix3 p q c)
        = ∑ q : Fin 128, x0 (ix3 p ⟨o + q.val, by have := q.isLt; omega⟩ c) :=
    fun o inb ho => Finset.sum_congr rfl fun q _ => ld_chunk x0 o inb p q c _
  rw [e 0 _ (by omega), e 128 _ (by omega), e 256 _ (by omega), e 384 _ (by omega)]
  unfold colSum
  have hs := Cert.LibBlockedSum.sum_blocks 4 128 (fun n : Fin (4 * 128) => x0 (ix3 p (⟨n.val, n.isLt⟩ : Fin 512) c))
  refine Eq.trans ?_ (Eq.trans hs.symm ?_)
  · rw [Fin.sum_univ_four]
    refine congrArg₂ (· + ·) (congrArg₂ (· + ·) (congrArg₂ (· + ·) ?_ ?_) ?_) ?_ <;>
      exact Finset.sum_congr rfl fun q _ => congrArg (fun r : Fin 512 => x0 (ix3 p r c)) (Fin.ext (by simp <;> omega))
  · rfl

/-- A 128-column piece of the scratch loaded back: entry (p, q) of the load at column offset o reads index (p, o + q). -/
theorem idx_cols (o : ℕ) (inb : ∀ a, (![0, o] : Fin 2 → ℕ) a + S8x128.size a ≤ S8x512.size a)
    (p : Fin 8) (q : Fin 128) (h : o + q.val < 512) :
    (Rect.unit (s := S8x512) ![0, o] S8x128.size inb).toLoadRect.idx (ix2 p q) = ix2 p ⟨o + q.val, h⟩ :=
  emb_cols o inb p q h

/-- The whole scratch loaded back reads every index in place. -/
theorem idx_whole (inb : ∀ a, (![0, 0] : Fin 2 → ℕ) a + S8x512.size a ≤ S8x512.size a) (p : Fin 8) (r : Fin 512) :
    (Rect.unit (s := S8x512) ![0, 0] S8x512.size inb).toLoadRect.idx (ix2 p r) = ix2 p r := by
  refine funext fun a => Fin.ext ?_
  match a with
  | ⟨0, _⟩ => show 0 + 1 * p.val = p.val; omega
  | ⟨1, _⟩ => show 0 + 1 * r.val = r.val; omega

/-- The index a 128-row piece of the output block gives its local index (p, q, c): (p, o + q, c). -/
theorem emb_rows (o : ℕ) (inb : ∀ a, (![0, o, 0] : Fin 3 → ℕ) a + S8x128x512.size a ≤ S8x512x512.size a)
    (p : Fin 8) (q : Fin 128) (c : Fin 512) (h : o + q.val < 512) :
    (Rect.unit (s := S8x512x512) ![0, o, 0] S8x128x512.size inb).emb (ix3 p q c) = ix3 p ⟨o + q.val, h⟩ c := by
  refine funext fun a => Fin.ext ?_
  match a with
  | ⟨0, _⟩ => show 0 + 1 * p.val = p.val; omega
  | ⟨1, _⟩ => show o + 1 * q.val = o + q.val; omega
  | ⟨2, _⟩ => show 0 + 1 * c.val = c.val; omega

/-- One output store's entry is the centred block's: given the chunk entry, the row sum, the scaled grand total and the
    scaled column sum it is built from. -/
theorem piece_entry (x0 : Vec Ideal S8x512x512 .f32) (p : Fin 8) (r c : Fin 512) (d rs g cm : EReal)
    (hd : d = x0 (ix3 p r c)) (hrs : rs = rowSum x0 p r)
    (hg : g = total x0 p * Ideal.ofBits .f32 0x36800000#32)
    (hcm : cm = colSum x0 p c * Ideal.ofBits .f32 0x3B000000#32) :
    (Ideal.ofBits .f32 0xBF000000#32 * d
        + Ideal.ofBits .f32 0x3F000000#32 * (rs * Ideal.ofBits .f32 0x3B000000#32 - g))
      + Ideal.ofBits .f32 0x3F000000#32 * cm = centred x0 (ix3 p r c) := by
  subst hd hrs hg hcm
  rfl

/-- The scaled grand total the body computes from the row-sum scratch. -/
theorem grand_apply (x0 : Vec Ideal S8x512x512 .f32) (p : Fin 8) (z z' : Fin 1) :
    k0_pay11 (F := Ideal) (rowsOf x0) (ix3 p z z') = total x0 p * Ideal.ofBits .f32 0x36800000#32 :=
  pay11_apply (rowsOf x0) p z z'

/-- The scaled column sums the body computes from the column-sum scratch. -/
theorem colmean_apply (x0 : Vec Ideal S8x512x512 .f32) (p : Fin 8) (z : Fin 1) (c : Fin 512) :
    k0_pay13 (F := Ideal) (colsOf x0) (k0_pay12 (F := Ideal)) (ix3 p z c) = colSum x0 p c * Ideal.ofBits .f32 0x3B000000#32 := by
  rw [pay13_apply, colsOf_apply, pay12_apply]

/-- The row sums of one chunk are the block's row sums at the chunk's rows. -/
theorem chunk_rows (x0 : Vec Ideal S8x512x512 .f32) (o : ℕ)
    (inb : ∀ a, (![0, o, 0] : Fin 3 → ℕ) a + S8x128x512.size a ≤ S8x512x512.size a)
    (p : Fin 8) (q : Fin 128) (h : o + q.val < 512) :
    k0_pay9 (F := Ideal) (View.ld x0 (Rect.unit (s := S8x512x512) ![0, o, 0] S8x128x512.size inb)) (ix2 p q)
      = rowSum x0 p ⟨o + q.val, h⟩ :=
  (pay9_apply _ p q).trans (Finset.sum_congr rfl fun c _ => ld_chunk x0 o inb p q c h)

/-- The block's row sums loaded back through a 128-column piece at column offset o. -/
theorem rows_cols (x0 : Vec Ideal S8x512x512 .f32) (o : ℕ)
    (inb : ∀ a, (![0, o] : Fin 2 → ℕ) a + S8x128.size a ≤ S8x512.size a) (p : Fin 8) (q : Fin 128) (h : o + q.val < 512) :
    (fun j => rowsOf x0 ((Rect.unit (s := S8x512) ![0, o] S8x128.size inb).toLoadRect.idx j)) (ix2 p q)
      = rowSum x0 p ⟨o + q.val, h⟩ := by
  show rowsOf x0 ((Rect.unit (s := S8x512) ![0, o] S8x128.size inb).toLoadRect.idx (ix2 p q)) = _
  rw [idx_cols o inb p q h]
  rfl

/-- The block's row sums loaded back whole. -/
theorem rows_whole (x0 : Vec Ideal S8x512x512 .f32) (inb : ∀ a, (![0, 0] : Fin 2 → ℕ) a + S8x512.size a ≤ S8x512.size a) :
    (fun j => rowsOf x0 ((Rect.unit (s := S8x512) ![0, 0] S8x512.size inb).toLoadRect.idx j)) = rowsOf x0 := by
  funext j
  obtain ⟨p, r, rfl⟩ : ∃ (p : Fin 8) (r : Fin 512), j = ix2 p r := ⟨j 0, j 1, eq_ix2 j⟩
  rw [idx_whole inb p r]

/-- The scaled grand total, from the row sums loaded back whole. -/
theorem grand_whole (x0 : Vec Ideal S8x512x512 .f32) (inb : ∀ a, (![0, 0] : Fin 2 → ℕ) a + S8x512.size a ≤ S8x512.size a)
    (p : Fin 8) (z z' : Fin 1) :
    k0_pay11 (F := Ideal) (fun j => rowsOf x0 ((Rect.unit (s := S8x512) ![0, 0] S8x512.size inb).toLoadRect.idx j)) (ix3 p z z')
      = total x0 p * Ideal.ofBits .f32 0x36800000#32 :=
  (congrArg (fun R : Vec Ideal S8x512 .f32 => k0_pay11 (F := Ideal) R (ix3 p z z')) (rows_whole x0 inb)).trans
    (grand_apply x0 p z z')

/-- The column sums times the splat of 1/512, entry by entry. -/
theorem colscaled_apply (x0 : Vec Ideal S8x512x512 .f32) (p : Fin 8) (c : Fin 512) :
    colsOf x0 (ix2 p c) * k0_pay12 (F := Ideal) (ix2 p c) = colSum x0 p c * Ideal.ofBits .f32 0x3B000000#32 := by
  rw [colsOf_apply, pay12_apply]

set_option maxHeartbeats 400000 in
/-- THE BODY'S VALUE: on any staging memrefs, handed the block x0, the body leaves the centred block. -/
theorem body_value (c : Dev nD) (i : grid0.Coords) (a1 : Memref sig .tc .vmem S8x512x512 .f32) (h1 : a1.IsWhole)
    (a2 : Memref sig .tc .vmem S8x512x512 .f32) (h2 : a2.IsWhole) (a3 : Memref sig .tc .vmem S8x512 .f32) (h3 : a3.IsWhole)
    (a4 : Memref sig .tc .vmem S8x512 .f32) (h4 : a4.IsWhole) (x0 : Vec Ideal S8x512x512 .f32) :
    out0_A_1 (F := Ideal) c i a1 h1 a2 h2 a3 h3 a4 h4 x0 = centred x0 := by
  unfold out0_A_1
  rw [View.read_writes_eq_canon _ _ _ (cover0_A_1 c i a1 h1 a2 h2 a3 h3 a4 h4 x0)]
  funext y
  refine View.canon_apply_of_pieces (centred x0) _ ?_ y (cover0_A_1 c i a1 h1 a2 h2 a3 h3 a4 h4 x0 y)
  unfold kernelRun0_A
  dsimp only
  sl_unfold_words
  simp only [View.readAt_eq_ld, h1.read_unread, View.readCov_cons_toLoadRect]
  repeat rw [rows_read]
  intro pc hpc
  simp only [List.mem_cons, List.not_mem_nil, or_false] at hpc
  rcases hpc with rfl | rfl | rfl | rfl
  · intro x
    obtain ⟨p, q, k, rfl⟩ : ∃ (p : Fin 8) (q : Fin 128) (k : Fin 512), x = ix3 p q k := ⟨x 0, x 1, x 2, eq_ix3 x⟩
    have hq : 384 + q.val < 512 := by have := q.isLt; omega
    refine (pay1_apply _ _ _ _ p q k).trans ?_
    refine Eq.trans ?_ (congrArg (centred x0) (emb_rows 384 inb_S8x512x512_S8x128x512_0_384_0 p q k hq)).symm
    refine piece_entry x0 p ⟨384 + q.val, hq⟩ k _ _ _ _ ?_ ?_ ?_ ?_
    · exact ld_chunk x0 384 inb_S8x512x512_S8x128x512_0_384_0 p q k hq
    · exact chunk_rows x0 384 inb_S8x512x512_S8x128x512_0_384_0 p q hq
    · exact grand_whole x0 inb_S8x512_S8x512_0_0 p 0 0
    · exact colmean_apply x0 p 0 k
  · intro x
    obtain ⟨p, q, k, rfl⟩ : ∃ (p : Fin 8) (q : Fin 128) (k : Fin 512), x = ix3 p q k := ⟨x 0, x 1, x 2, eq_ix3 x⟩
    have hq : 256 + q.val < 512 := by have := q.isLt; omega
    refine (pay16_apply _ _ _ _ p q k).trans ?_
    refine Eq.trans ?_ (congrArg (centred x0) (emb_rows 256 inb_S8x512x512_S8x128x512_0_256_0 p q k hq)).symm
    refine piece_entry x0 p ⟨256 + q.val, hq⟩ k _ _ _ _ ?_ ?_ ?_ ?_
    · exact ld_chunk x0 256 inb_S8x512x512_S8x128x512_0_256_0 p q k hq
    · exact rows_cols x0 256 inb_S8x512_S8x128_0_256 p q hq
    · exact grand_whole x0 inb_S8x512_S8x512_0_0 p 0 0
    · exact colmean_apply x0 p 0 k
  · intro x
    obtain ⟨p, q, k, rfl⟩ : ∃ (p : Fin 8) (q : Fin 128) (k : Fin 512), x = ix3 p q k := ⟨x 0, x 1, x 2, eq_ix3 x⟩
    have hq : 128 + q.val < 512 := by have := q.isLt; omega
    refine (pay15_apply _ _ _ _ _ p q k).trans ?_
    refine Eq.trans ?_ (congrArg (centred x0) (emb_rows 128 inb_S8x512x512_S8x128x512_0_128_0 p q k hq)).symm
    refine piece_entry x0 p ⟨128 + q.val, hq⟩ k _ _ _ _ ?_ ?_ ?_ ?_
    · exact ld_chunk x0 128 inb_S8x512x512_S8x128x512_0_128_0 p q k hq
    · exact rows_cols x0 128 inb_S8x512_S8x128_0_128 p q hq
    · exact grand_whole x0 inb_S8x512_S8x512_0_0 p 0 0
    · exact colscaled_apply x0 p k
  · intro x
    obtain ⟨p, q, k, rfl⟩ : ∃ (p : Fin 8) (q : Fin 128) (k : Fin 512), x = ix3 p q k := ⟨x 0, x 1, x 2, eq_ix3 x⟩
    have hq : 0 + q.val < 512 := by have := q.isLt; omega
    refine (pay14_apply _ _ _ _ _ p q k).trans ?_
    refine Eq.trans ?_ (congrArg (centred x0) (emb_rows 0 inb_S8x512x512_S8x128x512_0_0_0 p q k hq)).symm
    refine piece_entry x0 p ⟨0 + q.val, hq⟩ k _ _ _ _ ?_ ?_ ?_ ?_
    · exact ld_chunk x0 0 inb_S8x512x512_S8x128x512_0_0_0 p q k hq
    · exact rows_cols x0 0 inb_S8x512_S8x128_0_0 p q hq
    · exact grand_whole x0 inb_S8x512_S8x512_0_0 p 0 0
    · exact colscaled_apply x0 p k

end Cert.Centering.Body

end
-- ==== Proof.KernelValue.lean ====
/-
  The kernel's result array, after its run, is the doubly centred stack.

  The grid has 32 points; point t stages matrices 8t … 8t+7 of the stack, the body leaves their centred block in the
  output's staging buffer, and the block is written back to rows 8t … 8t+7 of the result.  One matrix's centring
  looks at that matrix alone, so the block the body leaves is the restriction of the whole stack's centring; the 32
  blocks tile the stack, so the result array is the centring of the input.
-/
import proofs.«112538_j41016937676996_2_alg».proof.Proof.Gen.KernelIdeal.Value
import proofs.«112538_j41016937676996_2_alg».proof.Proof.BodyValue
import proofs.«112538_j41016937676996_2_alg».proof.Proof.Spec
import Idealize.ShloMosaic.Lib.Pipeline.Value
import Idealize.ShloMosaic.Lib.ValueIdx

noncomputable section

namespace Cert.Centering.Kernel

open Idealize.ShloMosaic Idealize.ShloMosaic.TcCoe Idealize.SL.Sem Idealize.ShloMosaic.ValueIdx
open Idealize.ShloMosaic.Pipeline (Dat)
open Cert.KernelIdeal Cert.KernelIdeal.Gen Cert.Centering

variable (m : (ℓ : Loc nD τ sig) → Buf (Elt Ideal) ℓ) (ρ : Dev nD → PrngReg)

/-- Both windows' block index at point t is (t, 0, 0): decided once over the 32 points. -/
theorem idx_facts : ∀ t : Fin cfg0.N, win0_0.index t (0 : Fin 3) = t.val ∧ win0_0.index t (1 : Fin 3) = 0
    ∧ win0_0.index t (2 : Fin 3) = 0 ∧ win0_1.index t (0 : Fin 3) = t.val ∧ win0_1.index t (1 : Fin 3) = 0
    ∧ win0_1.index t (2 : Fin 3) = 0 :=
  (by decide +kernel : ∀ t : Fin grid0.N, _)

/-- One matrix's centring reads that matrix alone: if matrix p of X is matrix b of D, their centred entries agree. -/
theorem centred_of_matrix {n n' : ℕ} (D : (⟨3, ![n, 512, 512]⟩ : Shape).Idx → EReal)
    (X : (⟨3, ![n', 512, 512]⟩ : Shape).Idx → EReal) (b : Fin n) (p : Fin n')
    (h : ∀ r c : Fin 512, X (ix3 p r c) = D (ix3 b r c)) (r c : Fin 512) :
    centred X (ix3 p r c) = centred D (ix3 b r c) := by
  simp only [centred_ix3, rowSum, colSum, total, h]

/-- The input block staged at point t is rows 8t … 8t+7 of the stack. -/
theorem iblk_apply (c : Dev nD) (t : Fin cfg0.N) (p : Fin 8) (r k : Fin 512) (h : 8 * t.val + p.val < 256) :
    (iblk m c 0 t : Vec Ideal S8x512x512 .f32) (ix3 p r k) = V m c main_arg0 (ix3 ⟨8 * t.val + p.val, h⟩ r k) := by
  obtain ⟨e0, e1, e2, -, -, -⟩ := idx_facts t
  unfold iblk
  rw [View.read_apply]
  show V m c main_arg0 _ = V m c main_arg0 _
  refine congrArg (V m c main_arg0) (funext fun a => Fin.ext ?_)
  match a with
  | ⟨0, _⟩ => show win0_0.index t (0 : Fin 3) * 8 + 1 * p.val = 8 * t.val + p.val; rw [e0]; omega
  | ⟨1, _⟩ => show win0_0.index t (1 : Fin 3) * 512 + 1 * r.val = r.val; rw [e1]; omega
  | ⟨2, _⟩ => show win0_0.index t (2 : Fin 3) * 512 + 1 * k.val = k.val; rw [e2]; omega

/-- What point t writes back is block t of the centred stack. -/
theorem flushed_eq (c : Dev nD) (t : Fin cfg0.N) :
    (dats m 0 c).flushed 1 t = ((cfg0.win 1).blk t).view.read (Elt Ideal) (centred (V m c main_arg0)) := by
  rw [Cert.KernelIdeal.Value.flushed1_A]
  obtain ⟨-, -, -, f0, f1, f2⟩ := idx_facts t
  have hN : cfg0.N = 32 := N_0
  funext j
  show out0_A_1 c (grid0.coords t) (ms0_0 t) (hs0_0 t) (ms0_1 t) (hs0_1 t) scM0_0 (Memref.isWhole_whole _) scM0_1
      (Memref.isWhole_whole _) (iblk m c 0 t) j = centred (V m c main_arg0) (((cfg0.win 1).blk t).view.emb j)
  refine (congrFun (Cert.Centering.Body.body_value c (grid0.coords t) (ms0_0 t) (hs0_0 t) (ms0_1 t) (hs0_1 t) scM0_0
    (Memref.isWhole_whole _) scM0_1 (Memref.isWhole_whole _) (iblk m c 0 t)) j).trans ?_
  obtain ⟨p, r, k, rfl⟩ : ∃ (p : Fin 8) (r k : Fin 512), j = ix3 p r k := ⟨j 0, j 1, j 2, eq_ix3 j⟩
  have ht : t.val < 32 := hN ▸ t.isLt
  have hp : 8 * t.val + p.val < 256 := by have := p.isLt; omega
  have hemb : ((cfg0.win 1).blk t).view.emb (ix3 p r k) = ix3 (⟨8 * t.val + p.val, hp⟩ : Fin 256) r k := by
    refine funext fun a => Fin.ext ?_
    match a with
    | ⟨0, _⟩ => show win0_1.index t (0 : Fin 3) * 8 + 1 * p.val = 8 * t.val + p.val; rw [f0]; omega
    | ⟨1, _⟩ => show win0_1.index t (1 : Fin 3) * 512 + 1 * r.val = r.val; rw [f1]; omega
    | ⟨2, _⟩ => show win0_1.index t (2 : Fin 3) * 512 + 1 * k.val = k.val; rw [f2]; omega
  rw [hemb]
  exact centred_of_matrix (V m c main_arg0) (iblk m c 0 t) ⟨8 * t.val + p.val, hp⟩ p
    (fun r' k' => iblk_apply m c t p r' k' hp) r k

/-- An index of the result is in point t's block iff its coordinates are in the block's ranges. -/
theorem mem_blk (t : Fin cfg0.N) (i : S256x512x512.Idx) :
    i ∈ ((cfg0.win 1).blk t).view.set ↔ ∀ a : Fin 3, win0_1.index t a * S8x512x512.size a ≤ (i a).val
      ∧ (i a).val < win0_1.index t a * S8x512x512.size a + S8x512x512.size a := by
  show i ∈ ((View.whole main_v0).slice (win0_1.rect t)).set ↔ _
  rw [View.set_slice_whole, Rect.mem_set_unit]
  exact Iff.rfl

/-- Every index of the result lies in the block of the point that holds its matrix. -/
theorem cover (i : S256x512x512.Idx) : ∃ t : Fin cfg0.N, (cfg0.win 1).flush t = true ∧ i ∈ ((cfg0.win 1).blk t).view.set := by
  have hN : cfg0.N = 32 := N_0
  have h0 : (i 0).val < 256 := (i 0).isLt
  have h1 : (i 1).val < 512 := (i 1).isLt
  have h2 : (i 2).val < 512 := (i 2).isLt
  let t : Fin cfg0.N := ⟨(i 0).val / 8, by rw [hN]; omega⟩
  have htv : t.val = (i 0).val / 8 := rfl
  obtain ⟨-, -, -, f0, f1, f2⟩ := idx_facts t
  refine ⟨t, flush0_1 t, ?_⟩
  rw [mem_blk]
  intro a
  match a with
  | ⟨0, _⟩ => show win0_1.index t (0 : Fin 3) * 8 ≤ (i 0).val ∧ (i 0).val < win0_1.index t (0 : Fin 3) * 8 + 8; rw [f0, htv]; omega
  | ⟨1, _⟩ => show win0_1.index t (1 : Fin 3) * 512 ≤ (i 1).val ∧ (i 1).val < win0_1.index t (1 : Fin 3) * 512 + 512; rw [f1]; omega
  | ⟨2, _⟩ => show win0_1.index t (2 : Fin 3) * 512 ≤ (i 2).val ∧ (i 2).val < win0_1.index t (2 : Fin 3) * 512 + 512; rw [f2]; omega

/-- The result array after the run is the centred stack. -/
theorem final (c : Dev nD) : (dats m 0 c).arrAt 1 cfg0.N = centred (V m c main_arg0) :=
  (dats m 0 c).arrAt_eq_of_cover 1 (centred (V m c main_arg0)) (fun t _ => flushed_eq m c t) cover

/-- The kernel's run: every weakly fair execution ends with the result array at the centring of the input array,
    the input unchanged. -/
theorem run : θ_run defs (onTc (τ := τ) (main (F := Ideal))) ⟨m, fun _ => 0, ρ⟩ fun r => ∀ c : Dev nD,
      r.2.mem ((c : Thread nD τ).loc main_v0) = centred (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Cert.KernelIdeal.Value.run_blocks m ρ)

end Cert.Centering.Kernel

end
-- ==== Proof.Consts.lean ====
/-
  The float words the two programs spell, as the extended reals they denote.

  The kernel multiplies by the words of 1/512, 1/262144, 1/2 and -1/2; the reference divides by the words of 512
  and 262144 and multiplies by the word of -1/2.  All six are exact dyadic numbers, so each word denotes exactly
  the real number its decimal spelling says.
-/
import Idealize.ShloMosaic.PureOps.Ideal

noncomputable section

namespace Cert.Centering.Consts

open Idealize.ShloMosaic

/-- The word of `-0.5`. -/
theorem ofBits_neg_half : Ideal.ofBits .f32 0xBF000000#32 = ((-(1 / 2) : ℝ) : EReal) := by
  simp [Ideal.ofBits, Ideal.ieee, -EReal.coe_mul]; norm_num

/-- The word of `0.5`. -/
theorem ofBits_half : Ideal.ofBits .f32 0x3F000000#32 = ((1 / 2 : ℝ) : EReal) := by
  simp [Ideal.ofBits, Ideal.ieee, -EReal.coe_mul]; norm_num

/-- The word of `0.001953125 = 1/512`. -/
theorem ofBits_inv_512 : Ideal.ofBits .f32 0x3B000000#32 = ((1 / 512 : ℝ) : EReal) := by
  simp [Ideal.ofBits, Ideal.ieee, -EReal.coe_mul]; norm_num

/-- The word of `2⁻¹⁸ = 1/262144`. -/
theorem ofBits_inv_262144 : Ideal.ofBits .f32 0x36800000#32 = ((1 / 262144 : ℝ) : EReal) := by
  simp [Ideal.ofBits, Ideal.ieee, -EReal.coe_mul]; norm_num

/-- The word of `512.0`. -/
theorem ofBits_512 : Ideal.ofBits .f32 0x44000000#32 = ((512 : ℝ) : EReal) := by
  simp [Ideal.ofBits, Ideal.ieee, -EReal.coe_mul]; norm_num

/-- The word of `262144.0`. -/
theorem ofBits_262144 : Ideal.ofBits .f32 0x48800000#32 = ((262144 : ℝ) : EReal) := by
  simp [Ideal.ofBits, Ideal.ieee, -EReal.coe_mul]; norm_num

end Cert.Centering.Consts

end
-- ==== Proof.RefValue.lean ====
/-
  The reference's value, entry by entry.

  The reference computes `T = -1/2 · (((D − rowSum/512) − colSum/512) + total/262144)`: three sums (along a row, along
  a column, over a whole matrix), each divided by the number of terms it has, spread back over the matrix, and a final
  product with `-1/2`.  The specification arranges the same quantity as
  `(-1/2)·d + 1/2·(rowSum·(1/512) − total·(1/262144)) + 1/2·(colSum·(1/512))`.  Over the extended reals the two
  arrangements differ at infinities (a product does not distribute over a sum there), so the statement asks every
  entry of the input to be a real number; then every quantity in sight is the coercion of a real, a division by 512
  or 262144 is the product with the reciprocal, and the two sides are one real identity.
-/
import proofs.«112538_j41016937676996_2_alg».proof.Proof.Gen.ReferenceIdeal.Read
import proofs.«112538_j41016937676996_2_alg».proof.Proof.Spec
import proofs.«112538_j41016937676996_2_alg».proof.Proof.Consts
import Idealize.ShloMosaic.PureOps.Ideal.Laws
import Idealize.ShloMosaic.Lib.ValueIdx

noncomputable section

namespace Cert.Centering

open Idealize.ShloMosaic Idealize.ShloMosaic.ValueIdx Cert.ReferenceIdeal Cert.ReferenceIdeal.Read

/-- The coercion of a finite sum of reals is the sum of the coercions. -/
theorem coe_sum {ι : Type*} (s : Finset ι) (f : ι → ℝ) :
    ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-- Over the reals, the reference's arrangement of the double centering is the specification's: `d` an entry,
    `R` its row's sum, `C` its column's sum, `G` its matrix's sum. -/
theorem real_identity (d R C G : ℝ) :
    (-(1/2)) * (((d - R * (1/512)) - C * (1/512)) + G * (1/262144))
      = ((-(1/2)) * d + (1/2) * (R * (1/512) - G * (1/262144))) + (1/2) * (C * (1/512)) := by ring

/-- The row sum spread back to entry `(b, r, c)` runs over the entries `(b, r, k)` of row `r`. -/
theorem idx_row (b : Fin 256) (r c k : Fin 512) :
    idx_main_v0 (idx_main_v1 (idx_main_v12 (ix3 b r c))) k = ix3 b r k :=
  funext fun a => Fin.ext (by match a with | ⟨0, _⟩ => rfl | ⟨1, _⟩ => rfl | ⟨2, _⟩ => rfl)

/-- The column sum spread back to entry `(b, r, c)` runs over the entries `(b, k, c)` of column `c`. -/
theorem idx_col (b : Fin 256) (r c k : Fin 512) :
    idx_main_v4 (idx_main_v5 (idx_main_v14 (ix3 b r c))) k = ix3 b k c :=
  funext fun a => Fin.ext (by match a with | ⟨0, _⟩ => rfl | ⟨1, _⟩ => rfl | ⟨2, _⟩ => rfl)

/-- The matrix sum spread back to entry `(b, r, c)` is the one of matrix `b`. -/
theorem idx_tot (b : Fin 256) (r c : Fin 512) :
    idx_main_v9 (idx_main_v16 (ix3 b r c)) = ix1 b :=
  funext fun a => Fin.ext (by match a with | ⟨0, _⟩ => rfl)

/-- On an input whose entries are all real numbers, the reference's result is the doubly centred stack.  `htot`
    reads the sum over the last two axes at matrix `b` as the sum of all its entries, row by row. -/
theorem reference_eq (D : (⟨S256x512x512, .f32⟩ : BufTy).Contents (Elt Ideal))
    (hfin : ∀ i, ∃ r : ℝ, D i = ((r : ℝ) : EReal))
    (htot : ∀ b : Fin 256, val_main_v8 (F := Ideal) D (ix1 b) = ∑ r : Fin 512, ∑ c : Fin 512, D (ix3 b r c)) :
    val_main_v19 (F := Ideal) D = centred D := by
  funext i
  obtain ⟨b, r, c, rfl⟩ : ∃ (b : Fin 256) (r c : Fin 512), i = ix3 b r c := ⟨i 0, i 1, i 2, eq_ix3 i⟩
  rw [centred_ix3]
  -- Read the reference at the entry: -1/2 times ((d − (0 + row sum)/512) − (0 + column sum)/512) + (matrix sum)/262144.
  simp only [val_main_v19_apply, val_main_v18_apply, val_main_cst_5_apply, val_main_v17_apply, val_main_v15_apply,
    val_main_v13_apply, val_main_v12_apply, val_main_v3_apply, val_main_v1_apply, val_main_v0_apply, val_main_v2_apply,
    val_main_cst_0_apply, val_main_v14_apply, val_main_v7_apply, val_main_v5_apply, val_main_v4_apply, val_main_v6_apply,
    val_main_cst_2_apply, val_main_v16_apply, val_main_v11_apply, val_main_v9_apply, val_main_v10_apply,
    val_main_cst_4_apply, val_main_cst_apply, val_main_cst_1_apply,
    Ideal.mulf_def, Ideal.addf_def, Ideal.subf_def, Ideal.hostDivf_def, Ideal.ofBits_def]
  simp only [idx_row, idx_col, idx_tot, htot]
  -- Every entry is a real: both sides become the coercion of one real expression each.
  choose d hd using hfin
  simp only [rowSum, colSum, total, hd, ← coe_sum, Consts.ofBits_neg_half, Consts.ofBits_half, Consts.ofBits_inv_512,
    Consts.ofBits_inv_262144, Consts.ofBits_512, Consts.ofBits_262144, Ideal.ofBits_zero_f32, zero_add,
    Ideal.div_coe (by norm_num : (512 : ℝ) ≠ 0), Ideal.div_coe (by norm_num : (262144 : ℝ) ≠ 0),
    ← EReal.coe_mul, ← EReal.coe_add, ← EReal.coe_sub]
  exact congrArg _ (real_identity _ _ _ _)

end Cert.Centering

end
-- ==== Proof.LibTwoAxisSum.lean ====
/-
  The sum over one slab of a rank-3 array: a general lemma.

  A rank-3 index set is the product of its three coordinate ranges.  So the sum of an array's entries over the
  indices whose leading coordinate is `p` — however that set of indices is described — is the double sum, over the
  two trailing coordinates, of the entries of slab `p`.  This is what a sum reduction over the two trailing axes
  computes at `p`, in any commutative additive monoid.
-/
import Idealize.ShloMosaic.Lib.ValueIdx
import Mathlib.Algebra.BigOperators.Fin
import Mathlib.Algebra.BigOperators.Group.Finset.Basic

noncomputable section

namespace Cert.LibTwoAxisSum

open Idealize.ShloMosaic Idealize.ShloMosaic.ValueIdx

/-- A rank-3 index set is the product of its three coordinate ranges … -/
def idxEquiv3 {a b c : ℕ} : (⟨3, ![a, b, c]⟩ : Shape).Idx ≃ Fin a × Fin b × Fin c where
  toFun i := (i 0, i 1, i 2)
  invFun t := ix3 t.1 t.2.1 t.2.2
  left_inv i := (eq_ix3 i).symm
  right_inv _ := rfl

/-- … so the sum over the indices whose leading coordinate is `p` is the double sum, over the two trailing
    coordinates, of the entries of slab `p`. The fibre is given by any decidable predicate `P` that holds at
    `(q, r, k)` exactly when `q = p`, so that the lemma applies whichever way the fibre happens to be written. -/
theorem sum_filter_leading {M : Type*} [AddCommMonoid M] {a b c : ℕ} (x : (⟨3, ![a, b, c]⟩ : Shape).Idx → M)
    (p : Fin a) (P : (⟨3, ![a, b, c]⟩ : Shape).Idx → Prop) [DecidablePred P]
    (hP : ∀ (q : Fin a) (r : Fin b) (k : Fin c), P (ix3 q r k) ↔ q = p) :
    ∑ i ∈ Finset.univ.filter P, x i = ∑ r : Fin b, ∑ k : Fin c, x (ix3 p r k) := by
  calc ∑ i ∈ Finset.univ.filter P, x i
      = ∑ i : (⟨3, ![a, b, c]⟩ : Shape).Idx, if P i then x i else 0 := Finset.sum_filter _ _
    _ = ∑ t : Fin a × Fin b × Fin c, if P (ix3 t.1 t.2.1 t.2.2) then x (ix3 t.1 t.2.1 t.2.2) else 0 :=
        (Equiv.sum_comp (idxEquiv3 (a := a) (b := b) (c := c)).symm
          (fun i => if P i then x i else 0)).symm
    _ = ∑ q : Fin a, ∑ t : Fin b × Fin c, if P (ix3 q t.1 t.2) then x (ix3 q t.1 t.2) else 0 :=
        Fintype.sum_prod_type _
    _ = ∑ q : Fin a, if q = p then ∑ t : Fin b × Fin c, x (ix3 q t.1 t.2) else 0 := by
        refine Finset.sum_congr rfl fun q _ => ?_
        by_cases hq : q = p
        · rw [if_pos hq]
          exact Finset.sum_congr rfl fun t _ => if_pos ((hP q t.1 t.2).mpr hq)
        · rw [if_neg hq]
          exact Finset.sum_eq_zero fun t _ => if_neg fun h => hq ((hP q t.1 t.2).mp h)
    _ = ∑ t : Fin b × Fin c, x (ix3 p t.1 t.2) := by
        rw [Finset.sum_ite_eq' Finset.univ p, if_pos (Finset.mem_univ p)]
    _ = ∑ r : Fin b, ∑ k : Fin c, x (ix3 p r k) := Fintype.sum_prod_type _

end Cert.LibTwoAxisSum

end
-- ==== Proof.RefTotal.lean ====
/-
  The sum over the two trailing axes of a rank-3 array, read at an index.

  Summing an array `x` of shape `[a, b, c]` over its second and third axes leaves a vector of length `a` whose
  entry `p` is the sum of the whole slab `x (p, ·, ·)`. The reduction is defined through the fibre of the map that
  forgets the two reduced coordinates: entry `p` collects every index whose image is `p`. That map keeps the leading
  coordinate, so the fibre over `p` is `{i | i 0 = p}`; and a rank-3 index set is the product of its three coordinate
  ranges, so the sum over that fibre is the double sum over the two trailing coordinates.
-/
import proofs.«112538_j41016937676996_2_alg».proof.Proof.Gen.ReferenceIdeal.Read
import proofs.«112538_j41016937676996_2_alg».proof.Proof.LibTwoAxisSum
import Idealize.ShloMosaic.PureOps.Ideal.Laws
import Idealize.ShloMosaic.Lib.ValueIdx

noncomputable section

namespace Cert.Centering

open Idealize.ShloMosaic Idealize.ShloMosaic.ValueIdx Cert.ReferenceIdeal Cert.ReferenceIdeal.Read

/-- Forgetting the two trailing coordinates of an index of the `[256, 512, 512]` stack keeps its leading one: the
    index `(q, r, k)` drops to `b` exactly when `q = b`. -/
theorem drop_trailing_eq_iff (b q : Fin 256) (r k : Fin 512) :
    Gen.reducesTo_S256x512x512_S256_d1_2.drop (ix3 q r k) = ix1 b ↔ q = b := by
  have hv : (Gen.reducesTo_S256x512x512_S256_d1_2.drop (ix3 q r k) 0 : ℕ) = q.val :=
    Shape.ReducesTo.drop_apply_val_of_eq Gen.reducesTo_S256x512x512_S256_d1_2 (ix3 q r k) 0 0
  constructor
  · intro h
    refine Fin.ext ?_
    rw [← hv, h]
  · intro h
    funext d
    match d with
    | ⟨0, _⟩ => exact Fin.ext (hv.trans (congrArg Fin.val h))

/-- The reference's total of matrix `b`: the sum of all its `512 × 512` entries. The reduction starts from the
    constant `0` and adds the entries whose index drops to `b`, which are those of slab `b`. -/
theorem ref_total_apply (D : (⟨S256x512x512, .f32⟩ : BufTy).Contents (Elt Ideal)) (b : Fin 256) :
    val_main_v8 (F := Ideal) D (ix1 b) = ∑ r : Fin 512, ∑ c : Fin 512, D (ix3 b r c) := by
  unfold val_main_v8
  simp only [Host.reduceAdd, Ideal.hostReduceAdd_def]
  unfold Ideal.hostReduceAdd
  have h0 : val_main_cst_3 (F := Ideal) (Shape.Idx.first Gen.h_S_) = 0 := Ideal.ofBits_zero_f32
  refine (congrArg₂ (· + ·) h0
    (Cert.LibTwoAxisSum.sum_filter_leading D b _ fun q r k => drop_trailing_eq_iff b q r k)).trans ?_
  exact zero_add _

end Cert.Centering
-- ==== Proof.Finite.lean ====
import proofs.«112538_j41016937676996_2_alg».proof.Pre_finite_inputs
import proofs.«112538_j41016937676996_2_alg».proof.Proof.Gen.Pre_finite_inputs
import Idealize.ShloMosaic.PureOps.Ideal.Laws
import Idealize.ShloMosaic.Lib.ValueIdx
import Idealize.ShloMosaic.Lib.IdealHost
import Idealize.ShloMosaic.Lib.ReduceAll

/-!
# From the precondition to real entries

The certificate's precondition is the predicate `all (|D| < +∞)` evaluated to the bit 1. Over the
extended reals `|x|` is `max x (-x)`, the comparison is the strict order, and the word `0x7F800000`
denotes `⊤`. A conjunction over all entries that comes out 1 had a 1 at every entry, so every entry
satisfies `max x (-x) < ⊤`. Neither infinity does (`max ⊤ _ = ⊤`, `max ⊥ (-⊥) = max ⊥ ⊤ = ⊤`), hence
every entry is (the image of) a real number.
-/

noncomputable section

namespace Cert.Centering

open Idealize.ShloMosaic Idealize.ShloMosaic.ValueIdx

/-- The IEEE single-precision word `0x7F800000` is `+∞`. -/
theorem ofBits_posInf : Ideal.ofBits .f32 0x7F800000#32 = (⊤ : EReal) := by
  simp [Ideal.ofBits, Ideal.ieee]

/-- An extended real whose absolute value `max x (-x)` is strictly below `⊤` is a real number. -/
theorem exists_real_of_abs_lt_top (x : EReal) (hx : max x (-x) < (⊤ : EReal)) :
    ∃ r : ℝ, x = ((r : ℝ) : EReal) := by
  induction x using EReal.rec with
  | bot => exact absurd hx (by simp)
  | coe r => exact ⟨r, rfl⟩
  | top => exact absurd hx (by simp)

/-- The order comparison, as a bit, is 1 only when the strict inequality holds. -/
theorem lt_of_cmp_olt (x y : EReal) (h : Ideal.cmp .olt x y = 1#1) : x < y := by
  by_contra hn
  simp [Ideal.cmp, hn] at h

/-- The result of the reduction over all three axes has exactly one index. -/
instance subsingleton_scalarIdx : Subsingleton Cert.Pre_finite_inputs.S_.Idx :=
  ⟨fun a b => funext fun d => d.elim0⟩

/-- If the precondition `all (|D| < +∞)` holds then every entry of `D` is a real number. -/
theorem finite_of_pre (D : FVec Ideal Cert.Pre_finite_inputs.S256x512x512 .f32)
    (h : Cert.Pre_finite_inputs.fn (F := Ideal) D = fun _ => 1#1) :
    ∀ i, ∃ r : ℝ, D i = ((r : ℝ) : EReal) := by
  intro i
  have h0 := congrFun h ValueIdx.ix0
  dsimp only [Cert.Pre_finite_inputs.fn] at h0
  have hbit := Host.reduce_andi_all _ _ _ _ _ h0 i
  have hcmp : Ideal.cmp .olt (max (D i) (-(D i))) (Ideal.ofBits .f32 0x7F800000#32) = 1#1 := by
    refine Eq.trans ?_ hbit
    rw [cmpf_apply]
    rw [broadcastInDim_scalar_apply]
    rfl
  rw [ofBits_posInf] at hcmp
  exact exists_real_of_abs_lt_top (D i) (lt_of_cmp_olt _ _ hcmp)

end Cert.Centering

end
-- ==== Proof.lean ====
/-
  The certificate of the double-centring kernel against its jnp reference.

  Both programs compute, for each of 256 matrices D of side 512,
      T = -1/2 · (D − row means − column means + grand mean).
  The kernel arranges it as (-1/2)·d + 1/2·(rowSum·(1/512) − total·(1/262144)) + 1/2·(colSum·(1/512)), with the sums
  gathered chunk by chunk in scratch memory; the reference divides the three sums by 512, 512 and 262144, combines
  them with the entry and multiplies by -1/2 at the end.  The scale factors are exact powers of two, so the two
  spellings denote the same numbers.  Passing from one arrangement to the other distributes -1/2 over a sum, which is
  valid for real numbers but not at infinities: the precondition (every input entry finite) is what makes every
  entry real.

  The three frame claims are the generated frame runs (the reference's with its result forgotten); the idealization
  rewrote nothing, so `preserves` is trivial; `algebraic` sets the kernel's run, read as the centred stack
  (Proof/KernelValue.lean over Proof/BodyValue.lean), beside the reference's run, read entry by entry
  (Proof/RefValue.lean with the two-axis sum of Proof/RefTotal.lean) under the finiteness the precondition gives
  (Proof/Finite.lean).
-/
import proofs.«112538_j41016937676996_2_alg».proof.Defs
import proofs.«112538_j41016937676996_2_alg».proof.Proof.Gen.Kernel
import proofs.«112538_j41016937676996_2_alg».proof.Proof.Gen.Kernel.Frame
import proofs.«112538_j41016937676996_2_alg».proof.Proof.Gen.KernelIdeal
import proofs.«112538_j41016937676996_2_alg».proof.Proof.Gen.KernelIdeal.Frame
import proofs.«112538_j41016937676996_2_alg».proof.Proof.Gen.KernelIdeal.Value
import proofs.«112538_j41016937676996_2_alg».proof.Proof.Gen.ReferenceIdeal
import proofs.«112538_j41016937676996_2_alg».proof.Proof.Gen.ReferenceIdeal.Run
import proofs.«112538_j41016937676996_2_alg».proof.Proof.Gen.ReferenceIdeal.Read
import proofs.«112538_j41016937676996_2_alg».proof.Proof.Gen.Pre_finite_inputs
import proofs.«112538_j41016937676996_2_alg».proof.Proof.KernelValue
import proofs.«112538_j41016937676996_2_alg».proof.Proof.RefValue
import proofs.«112538_j41016937676996_2_alg».proof.Proof.RefTotal
import proofs.«112538_j41016937676996_2_alg».proof.Proof.Finite
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the input, the kernel's result array ends at the centring of the input (its run, read
    block by block) and the reference's at its own term of the same input, which is the centring entry by entry once
    every entry is real. -/
theorem algebraic : Cert.algebraic_KernelIdeal_ReferenceIdeal := by
  intro m ρ m' ρ' hpre hagree
  refine ⟨fun c => Cert.Centering.centred (m ((c.tc : Thread Cert.KernelIdeal.nD Cert.KernelIdeal.τ).loc Cert.KernelIdeal.main_arg0)),
    Cert.Centering.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, hagree c]
  exact Cert.Centering.reference_eq _ (Cert.Centering.finite_of_pre _ (hpre c))
    (fun b => Cert.Centering.ref_total_apply _ b)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
